-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S1024x4096 : Shape := ⟨2, ![1024, 4096]⟩
abbrev S1024x1 : Shape := ⟨2, ![1024, 1]⟩
abbrev S1024 : Shape := ⟨1, ![1024]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 54
  | .vmem => 5
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S_, .f32⟩
  | .hbm, ⟨4, _⟩ => ⟨S4096x1, .f32⟩
  | .hbm, ⟨5, _⟩ => ⟨S4096x1, .f32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S4096x1x1, .i32⟩
  | .hbm, ⟨15, _⟩ => ⟨S1, .i32⟩
  | .hbm, ⟨16, _⟩ => ⟨S_, .i32⟩
  | .hbm, ⟨17, _⟩ => ⟨S4096x1x1, .i32⟩
  | .hbm, ⟨18, _⟩ => ⟨S4096x1x1, .i1⟩
  | .hbm, ⟨19, _⟩ => ⟨S1x1x1, .i32⟩
  | .hbm, ⟨20, _⟩ => ⟨S4096x1x1, .i32⟩
  | .hbm, ⟨21, _⟩ => ⟨S4096x1x1, .i1⟩
  | .hbm, ⟨22, _⟩ => ⟨S4096x1x1, .i1⟩
  | .hbm, ⟨23, _⟩ => ⟨S_, .i1⟩
  | .hbm, ⟨24, _⟩ => ⟨S4096x1, .i1⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .i1⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_5 : Ref sig .tc := ⟨.hbm, 50, rfl⟩
abbrev main_v21 : Ref sig .tc := ⟨.hbm, 51, rfl⟩
abbrev main_cst_6 : Ref sig .tc := ⟨.hbm, 52, rfl⟩
abbrev main_v22 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 13], ![false, false]⟩

def k0_cond2 (i : grid0.Coords) : BitVec 1 :=
  let arg1 : BitVec 32 := BitVec.ofNat 32 (i 1).val
  let c12_i32 : BitVec 32 := 12#32
  let v13 : BitVec 1 := Scalar.cmpi .eq arg1 c12_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  iota_S1024x4096_d1_w32 : S1024x4096.Iotas .tc 32 [1]
  reduces_S1024x4096_S1024 : S1024x4096.Reduces [1] S1024
  shapeCasts_S1024_S1024x1 : S1024.ShapeCasts S1024x1
  bcast_S_S4096x1 : S_.BroadcastsInDim S4096x1 (![] : Fin 0 → Fin S4096x1.rank)
  bcast_S4096_S4096x1_0 : S4096.BroadcastsInDim S4096x1 (![0] : Fin 1 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  bcast_S_S4096 : S_.BroadcastsInDim S4096 (![] : Fin 0 → Fin S4096.rank)
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x4096.size a < S4096x50257.size a
  hwx0_0 : ∀ i : grid0.Coords, EltTy.bits .f32 = 32 ∨ (Rect.unit (s := S4096x50257) (fun a => cc0_transform_0 i a * S1024x4096.size a) (fun a => (Pipeline.Clip.of (cc0_transform_0 i a) (S1024x4096.size a) (S4096x50257.size a)).extent (S1024x4096.size a)) fun a => Pipeline.Clip.inb (Pipeline.Clip.ok_of (hstart0_0 i a))).WholeWords (EltTy.packing .f32)
  hwxs0_0 : ∀ i : grid0.Coords, EltTy.bits .f32 = 32 ∨ (Rect.unit (s := S1024x4096) (fun _ => 0) (fun a => (Pipeline.Clip.of (cc0_transform_0 i a) (S1024x4096.size a) (S4096x50257.size a)).extent (S1024x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpecClip (Memref.whole main_arg0) S1024x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096x50257, .f32⟩
  | .hbm, ⟨4, _⟩ => ⟨S4096x50257, .i1⟩
  | .hbm, ⟨5, _⟩ => ⟨S_, .f32⟩
  | .hbm, ⟨6, _⟩ => ⟨S4096x50257, .f32⟩
  | .hbm, ⟨7, _⟩ => ⟨S4096x50257, .f32⟩
  | .hbm, ⟨8, _⟩ => ⟨S_, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096x50257, .f32⟩
  | .hbm, ⟨13, _⟩ => ⟨S4096x50257, .f32⟩
  | .hbm, ⟨14, _⟩ => ⟨S4096x50257, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x50257, .f32⟩
  | .hbm, ⟨23, _⟩ => ⟨S4096x50257, .f32⟩
  | .hbm, ⟨24, _⟩ => ⟨S4096x1, .i32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S_, .i32⟩
  | .hbm, ⟨29, _⟩ => ⟨S4096x1, .i32⟩
  | .hbm, ⟨30, _⟩ => ⟨S4096x1, .i32⟩
  | .hbm, ⟨31, _⟩ => ⟨S4096x1, .i32⟩
  | .hbm, ⟨32, _⟩ => ⟨S4096x1x1, .i32⟩
  | .hbm, ⟨33, _⟩ => ⟨S1, .i32⟩
  | .hbm, ⟨34, _⟩ => ⟨S_, .i32⟩
  | .hbm, ⟨35, _⟩ => ⟨S4096x1x1, .i32⟩
  | .hbm, ⟨36, _⟩ => ⟨S4096x1x1, .i1⟩
  | .hbm, ⟨37, _⟩ => ⟨S1x1x1, .i32⟩
  | .hbm, ⟨38, _⟩ => ⟨S4096x1x1, .i32⟩
  | .hbm, ⟨39, _⟩ => ⟨S4096x1x1, .i1⟩
  | .hbm, ⟨40, _⟩ => ⟨S4096x1x1, .i1⟩
  | .hbm, ⟨41, _⟩ => ⟨S_, .i1⟩
  | .hbm, ⟨42, _⟩ => ⟨S4096x1, .i1⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_call3_v0 : Ref sig .tc := ⟨.hbm, 49, rfl⟩
abbrev main_call3_v1 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_6 : Ref sig .tc := ⟨.hbm, 54, rfl⟩
abbrev main_v20 : Ref sig .tc := ⟨.hbm, 55, rfl⟩
abbrev main_cst_7 : Ref sig .tc := ⟨.hbm, 56, rfl⟩
abbrev main_v21 : Ref sig .tc := ⟨.hbm, 57, rfl⟩

abbrev nD : Nat := 1
abbrev τ : Topo := Topo.v7x

variable {F : FTy → Type} [FloatOps F]

class Facts₀ : Prop where
  bcast_S_S4096x50257 : S_.BroadcastsInDim S4096x50257 (![] : Fin 0 → Fin S4096x50257.rank)
  reducesTo_S4096x50257_S4096_d1 : S4096x50257.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x50257_0_1 : S4096x1.BroadcastsInDim S4096x50257 (![0, 1] : Fin 2 → Fin S4096x50257.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.KbCases.lean ====
/-
  The kernel body branches three times on the class-tile coordinate `j` of the grid point `(i, j)`, `j < 13`:
  on `j = 0` it zeroes the row accumulator, on `j = 12` it adds the masked tile and writes the accumulator out,
  on `j ≠ 12` it adds the whole tile. Point `t` of the grid's 52 has `j = t mod 13`, so the three conditions are
  `t % 13 = 0`, `t % 13 = 12` and `t % 13 ≠ 12`. The output block is stored, and written back, only at the points
  with `j = 12`; the input block overhangs the array only there (columns 49152 + k with k ≥ 1105).
-/
import proofs.«124795_j35227321762365_2_alg».proof.Proof.Gen.Kernel.Frame
import proofs.«124795_j35227321762365_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- `j = 0`: the condition of the first branch, as the body computes it from the coordinates. -/
abbrev isFirst (i : grid0.Coords) : Prop :=
  (Scalar.cmpi .ne (Scalar.extui (Scalar.cmpi .eq (BitVec.ofNat 32 (i 1).val) 0#32)) 0#32) = 1#1
/-- `j = 12`: the condition of the second branch. -/
abbrev isLast (i : grid0.Coords) : Prop := k0_cond2 i = 1#1
/-- `j ≠ 12`: the condition of the third branch. -/
abbrev notLast (i : grid0.Coords) : Prop :=
  (Scalar.cmpi .ne (Scalar.extui (Scalar.cmpi .ne (BitVec.ofNat 32 (i 1).val) 12#32)) 0#32) = 1#1

theorem isFirst_iff : ∀ t : Fin cfg0.N, isFirst (grid0.coords t) ↔ t.val % 13 = 0 :=
  (by decide +kernel : ∀ t : Fin grid0.N, isFirst (grid0.coords t) ↔ t.val % 13 = 0)
theorem isLast_iff : ∀ t : Fin cfg0.N, isLast (grid0.coords t) ↔ t.val % 13 = 12 :=
  (by decide +kernel : ∀ t : Fin grid0.N, isLast (grid0.coords t) ↔ t.val % 13 = 12)
theorem notLast_iff : ∀ t : Fin cfg0.N, notLast (grid0.coords t) ↔ ¬t.val % 13 = 12 :=
  (by decide +kernel : ∀ t : Fin grid0.N, notLast (grid0.coords t) ↔ ¬t.val % 13 = 12)
/-- The class-tile coordinate of point `t`. -/
theorem coord1 : ∀ t : Fin cfg0.N, ((grid0.coords t) 1).val = t.val % 13 :=
  (by decide +kernel : ∀ t : Fin grid0.N, ((grid0.coords t) 1).val = t.val % 13)
/-- The row-tile coordinate of point `t`. -/
theorem coord0 : ∀ t : Fin cfg0.N, ((grid0.coords t) 0).val = t.val / 13 :=
  (by decide +kernel : ∀ t : Fin grid0.N, ((grid0.coords t) 0).val = t.val / 13)

/-- The input window is live at every point. -/
theorem live_in : ∀ t : Fin cfg0.N, cfg0.idle 0 (grid0.coords t) = false := by decide +kernel
/-- Away from `j = 12` the output window is idle and not written back. -/
theorem idle_out : ∀ t : Fin cfg0.N, ¬t.val % 13 = 12 → cfg0.idle 1 (grid0.coords t) = true := by decide +kernel
theorem noflush_out : ∀ t : Fin cfg0.N, ¬t.val % 13 = 12 → (cfg0.win 1).flush t = false := by decide +kernel
/-- At `j = 12` it is live. -/
theorem live_out : ∀ t : Fin cfg0.N, t.val % 13 = 12 → cfg0.idle 1 (grid0.coords t) = false := by decide +kernel

/-- Each window's current staging memref at point `t`, and its wholeness. -/
abbrev msIn (t : Fin cfg0.N) : Memref sig .tc .vmem S1024x4096 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1024x1 .f32 := win0_1.stage (cfg0.slots t 1)
abbrev hsOut (t : Fin cfg0.N) : (msOut t).IsWhole := hstage0_1 ((cfg0.slots t 1).cast nbuf0_1)
/-- The row accumulator: the kernel's one scratch buffer. -/
abbrev scM : Memref sig .tc .vmem S1024x1 .f32 := Memref.whole cc0_scratch0

/-- What the launch hands the body besides the windows: the accumulator at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KbRunA.lean ====
/-
  The body at a point with `j = 0` (first branch taken, second not, third taken), on whole staging memrefs: the
  input's buffer at contents `x0`, the output's untouched, the accumulator at anything. It stores the zero block
  into the accumulator, loads the input block, and stores the accumulator plus the tile's row sums. The pieces
  the accumulator ends with are found by running the body.
-/
import proofs.«124795_j35227321762365_2_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : isFirst i) (h2 : ¬isLast i) (h3 : notLast i) (x0 : Vec F S1024x4096 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare xo ∗ (∃ d, owns (c : Thread nD τ) arg4 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, fun xo E K => ?run⟩
  case run =>
    simp only [cc0__stablemax_denom_kernel_eq_skeleton]; unfold cc0__stablemax_denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Body

end
-- ==== Proof.KbRunB.lean ====
/-
  The body at a point with `0 < j < 12` (only the third branch taken): the accumulator arrives at the contents
  `xs` the point before left and ends at `xs` plus the tile's row sums; the output's buffer is untouched.
-/
import proofs.«124795_j35227321762365_2_alg».proof.Proof.KbRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : ¬isLast i) (h3 : notLast i) (x0 : Vec F S1024x4096 .f32) (xs : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare xo ∗ owns (c : Thread nD τ) arg4 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, fun xo E K => ?run⟩
  case run =>
    simp only [cc0__stablemax_denom_kernel_eq_skeleton]; unfold cc0__stablemax_denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Body

end
-- ==== Proof.KbRunC.lean ====
/-
  The body at a point with `j = 12` (only the second branch taken): the accumulator arrives at `xs`, ends at `xs`
  plus the masked tile's row sums, and that block is stored whole into the output's buffer, which arrives at
  anything.
-/
import proofs.«124795_j35227321762365_2_alg».proof.Proof.KbRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, ?_, fun E K => ?run⟩
  case run =>
    simp only [cc0__stablemax_denom_kernel_eq_skeleton]; unfold cc0__stablemax_denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact h1 | exact h2 | exact h3)
    sl_step
    iapply Hk
    isplitl [H0]
    · iexists _; isplitr; · ipureintro; exact harg2.read_unread _
      iexact H0
    isplitl [H1]
    · iexists _; iexact H1
    iexists _; iexact HS0

end Cert.Kernel.Body

end
-- ==== Proof.KbPayCongr.lean ====
/-
  The masked payload of the last column tile depends only on the tile's entries at the columns that lie inside the
  array: an entry at a column `49152 + k ≥ 50257` is replaced by the zero word before the row sum, so two tiles that
  agree at the columns below 50257 give the same payload.
-/
import proofs.«124795_j35227321762365_2_alg».proof.Proof.Gen.Kernel.Skeleton
import Idealize.ShloMosaic.Lib.ValueIdx
import Idealize.ShloMosaic.Lib.Pipeline.Value

noncomputable section

namespace Cert.Kernel.PayCongr

open Idealize.ShloMosaic Idealize.SL.Sem Idealize.ShloMosaic.ValueIdx

variable {F : FTy → Type} [FloatOps F]

/-- Tile 12 starts at column `12 * 4096 = 49152`. -/
theorem tile_start : Scalar.muli (BitVec.ofNat 32 12) 4096#32 = 49152#32 := by decide

/-- For `k < 4096` the 32-bit signed comparison `49152 + k < 50257` answers `1` only where it holds of the naturals:
    the sum stays below `2 ^ 31`, so the word read signed is the natural number. -/
theorem in_range_of_bit (k : Fin 4096)
    (hb : IntOp.cmpi .slt (IntOp.addi 49152#32 (BitVec.ofNat 32 k.val)) 50257#32 = 1#1) : 49152 + k.val < 50257 := by
  have hk := k.isLt
  unfold IntOp.cmpi IntOp.addi at hb
  simp only [BitVec.slt, BitVec.ofBool] at hb
  by_cases hP : (49152#32 + BitVec.ofNat 32 k.val).toInt < (50257#32).toInt
  · have e1 : (49152#32 + BitVec.ofNat 32 k.val).toNat = 49152 + k.val := by
      rw [BitVec.toNat_add, BitVec.toNat_ofNat, BitVec.toNat_ofNat]; omega
    have e2 : (49152#32 + BitVec.ofNat 32 k.val).toInt = ((49152 + k.val : Nat) : Int) := by
      rw [BitVec.toInt_eq_toNat_cond, e1, if_pos (by omega)]
    have e3 : (50257#32).toInt = 50257 := by decide
    rw [e2, e3] at hP
    omega
  · rw [decide_eq_false hP] at hb
    exact absurd hb (by decide)

/-- The last tile's mask at `(r, k)` is `1` only where the column `49152 + k` is below 50257. -/
theorem mask_in_range (i : grid0.Coords) (hi : (i 1).val = 12) (hI : S1024x4096.Iotas .tc 32 [1]) (r : Fin 1024) (k : Fin 4096)
    (hb : cmpi .slt (addi (broadcast S1024x4096 (Scalar.muli (BitVec.ofNat 32 (i 1).val) 4096#32)) (iota .tc S1024x4096 32 [1] hI))
      (broadcast S1024x4096 50257#32) (ix2 r k) = 1#1) : 49152 + k.val < 50257 := by
  change IntOp.cmpi .slt (IntOp.addi (Scalar.muli (BitVec.ofNat 32 (i 1).val) 4096#32) (iota .tc S1024x4096 32 [1] hI (ix2 r k))) 50257#32 = 1#1 at hb
  rw [hi, tile_start, iota_single_apply] at hb
  exact in_range_of_bit k hb

/-- The entrywise payload at an index depends only on the tile's entry there. -/
theorem pay2_congr_at (X X' : Vec F S1024x4096 .f32) (j : S1024x4096.Idx) (h : X j = X' j) :
    Gen.k0_pay2 X j = Gen.k0_pay2 X' j := by
  unfold Gen.k0_pay2
  simp only [select, cmpf, addf, subf, divf, broadcast, h]

/-- Two tiles that agree at every column below 50257 give the last tile the same payload. -/
theorem pay3_congr (i : grid0.Coords) (hi : (i 1).val = 12) (X X' : Vec F S1024x4096 .f32) (p : Vec F S1024x1 .f32)
    (h : ∀ (r : Fin 1024) (k : Fin 4096), 49152 + k.val < 50257 → X (ix2 r k) = X' (ix2 r k)) :
    Gen.k0_pay3 i X p = Gen.k0_pay3 i X' p := by
  have key : ∀ (m : IVec S1024x4096 1) (z : FVec F S1024x4096 .f32),
      (∀ (r : Fin 1024) (k : Fin 4096), m (ix2 r k) = 1#1 → 49152 + k.val < 50257) →
      select m (Gen.k0_pay2 X) z = select m (Gen.k0_pay2 X') z := by
    intro m z hm
    funext j
    obtain ⟨r, k, rfl⟩ : ∃ (r : Fin 1024) (k : Fin 4096), j = ix2 r k := ⟨j 0, j 1, eq_ix2 j⟩
    show Scalar.select (m (ix2 r k)) (Gen.k0_pay2 X (ix2 r k)) (z (ix2 r k))
      = Scalar.select (m (ix2 r k)) (Gen.k0_pay2 X' (ix2 r k)) (z (ix2 r k))
    unfold Scalar.select
    by_cases hb : m (ix2 r k) = 1
    · rw [if_pos hb, if_pos hb]
      exact pay2_congr_at X X' _ (h r k (hm r k hb))
    · rw [if_neg hb, if_neg hb]
  unfold Gen.k0_pay3
  dsimp only
  rw [key _ _ (fun r k hb => mask_in_range i hi Gen.iota_S1024x4096_d1_w32 r k hb)]

end Cert.Kernel.PayCongr

end
-- ==== Proof.KbData.lean ====
/-
  The frame of the kernel's program. Proof data of its one pipeline: the argument arrays as launched; after the body
  at point `t` the input's staging buffer at its block (filled out past the array's end by the zero word, a part
  nothing reads), the output's at the accumulator; the invariant carries the row accumulator from point to point.

  The accumulator after point `t` (`acc`): at `j = 0` the zero block plus the tile's row sums, at `0 < j < 12` the
  accumulator of the point before plus the tile's row sums, at `j = 12` that plus the row sums of the tile masked to
  the columns inside the array. At `j = 12` the staging buffer's columns past the array's end hold words nothing
  names; the mask discards exactly those, so the accumulator does not depend on them.
-/
import proofs.«124795_j35227321762365_2_alg».proof.Proof.KbRunC
import proofs.«124795_j35227321762365_2_alg».proof.Proof.KbPayCongr
import Idealize.ShloMosaic.Lib.ValueIdx
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The windows' cuts -/

/-- Away from `j = 12` the input block lies inside the array. -/
theorem unclipped : ∀ t : Fin cfg0.N, ¬t.val % 13 = 12 → ∀ a, (cfg0.win 0).clip (grid0.coords t) a = none := by decide +kernel
/-- At `j = 12` the fetch moves 1024 rows of 1105 columns. -/
theorem xsize_last : ∀ t : Fin cfg0.N, t.val % 13 = 12 →
    win0_0.xsize (grid0.coords t) 0 = 1024 ∧ win0_0.xsize (grid0.coords t) 1 = 1105 := by decide +kernel

/-! ## The accumulator, point by point -/

/-- The input block at point `t`, filled out to the staging buffer's shape by the zero word. -/
def xin (c : Dev nD) (t : Fin cfg0.N) : Vec F S1024x4096 .f32 :=
  win0_0.fill (grid0.coords t) (fun _ => Scalar.ofBits .f32 0#32) (iblk m c 0 t)

/-- The accumulator after the body at point `n`. -/
def acc (c : Dev nD) : (n : ℕ) → n < cfg0.N → Vec F S1024x1 .f32
  | 0, hn => k0_pay4 (xin m c ⟨0, hn⟩) (k0_pay1 (F := F))
  | n + 1, hn =>
    if (n + 1) % 13 = 0 then k0_pay4 (xin m c ⟨n + 1, hn⟩) (k0_pay1 (F := F))
    else if (n + 1) % 13 = 12 then k0_pay3 (grid0.coords ⟨n + 1, hn⟩) (xin m c ⟨n + 1, hn⟩) (acc c n (Nat.lt_of_succ_lt hn))
    else k0_pay4 (xin m c ⟨n + 1, hn⟩) (acc c n (Nat.lt_of_succ_lt hn))

theorem acc_first (c : Dev nD) (t : Fin cfg0.N) (h0 : t.val % 13 = 0) :
    acc m c t.val t.isLt = k0_pay4 (xin m c t) (k0_pay1 (F := F)) := by
  obtain ⟨n, hn⟩ := t
  cases n with
  | zero => rfl
  | succ n => exact if_pos h0

theorem acc_mid (c : Dev nD) (t : Fin cfg0.N) (h0 : ¬t.val % 13 = 0) (h12 : ¬t.val % 13 = 12) :
    acc m c t.val t.isLt = k0_pay4 (xin m c t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_neg h12).trans rfl)

theorem acc_last (c : Dev nD) (t : Fin cfg0.N) (h0 : ¬t.val % 13 = 0) (h12 : t.val % 13 = 12) :
    acc m c t.val t.isLt = k0_pay3 (grid0.coords t) (xin m c t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_pos h12).trans rfl)

/-- Away from `j = 12` the fetch fills the whole buffer: what it held before does not matter. -/
theorem fill_mid (c : Dev nD) (t : Fin cfg0.N) (h12 : ¬t.val % 13 = 12) (d : S1024x4096.Idx → Elt F .f32) :
    win0_0.fill (grid0.coords t) d (iblk m c 0 t) = xin m c t :=
  Pipeline.fill_of_clip_none (cfg := cfg0) 0 (grid0.coords t) (unclipped t h12) d _ (iblk m c 0 t)

/-- At `j = 12` two fillings of the fetched block agree on the columns the mask keeps. -/
theorem fill_last (c : Dev nD) (t : Fin cfg0.N) (h12 : t.val % 13 = 12) (d : S1024x4096.Idx → Elt F .f32)
    (r : Fin 1024) (k : Fin 4096) (hk : 49152 + k.val < 50257) :
    win0_0.fill (grid0.coords t) d (iblk m c 0 t) (ix2 r k) = xin m c t (ix2 r k) := by
  have hm : win0_0.moved (grid0.coords t) (ix2 r k) = true := (win0_0.moved_iff _ _).mpr fun a => by
    match a with
    | ⟨0, _⟩ => show r.val < win0_0.xsize (grid0.coords t) 0; rw [(xsize_last t h12).1]; exact r.isLt
    | ⟨1, _⟩ => show k.val < win0_0.xsize (grid0.coords t) 1; rw [(xsize_last t h12).2]; omega
  unfold xin Window.fill; rw [dif_pos hm, dif_pos hm]

/-- So the masked accumulation at `j = 12` is the same over any filling. -/
theorem pay3_fill (c : Dev nD) (t : Fin cfg0.N) (h12 : t.val % 13 = 12) (d : S1024x4096.Idx → Elt F .f32) (p : Vec F S1024x1 .f32) :
    k0_pay3 (grid0.coords t) (win0_0.fill (grid0.coords t) d (iblk m c 0 t)) p = k0_pay3 (grid0.coords t) (xin m c t) p :=
  Cert.Kernel.PayCongr.pay3_congr (grid0.coords t) (by rw [coord1 t, h12]) _ _ p (fun r k hk => fill_last m c t h12 d r k hk)

/-! ## What the runs' pieces leave -/

theorem hz2 : (![0, 0] : Fin 2 → Nat) = fun _ => 0 := funext fun a => by fin_cases a <;> rfl

/-- After a point with `j = 0` the accumulator holds the zero block plus the tile's row sums. -/
theorem scr_first (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : isFirst i) (h2 : ¬isLast i) (h3 : notLast i) (x0 : Vec F S1024x4096 .f32) (f) :
    arg4.view.read (Elt F) (arg4.view.writes (Elt F) f (runFirst (F := F) c i arg2 harg2 arg3 harg3 arg4 harg4 h1 h2 h3 x0).val)
      = k0_pay4 x0 (k0_pay1 (F := F)) := by
  rw [View.read_writes_eq_canon _ _ _ (View.cover_of_tiledL _ S1024x1.size (by sl_kernel_rfl))]
  unfold runFirst; dsimp only; sl_unfold_words
  rw [View.canon_cons_unit_zero hz2]
  simp only [View.readAt_eq_ld, harg2.read_unread, View.ld_unit_zero (S := S1024x4096) hz2]
  rw [View.readCov_unit_zero (S := S1024x1) arg4.view hz2]

/-- After a point with `0 < j < 12`: what the point before left plus the tile's row sums. -/
theorem scr_mid (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : ¬isLast i) (h3 : notLast i) (x0 : Vec F S1024x4096 .f32) (xs : Vec F S1024x1 .f32) (f) :
    arg4.view.read (Elt F) (arg4.view.writes (Elt F) f (runMid (F := F) c i arg2 harg2 arg3 harg3 arg4 harg4 h1 h2 h3 x0 xs).val)
      = k0_pay4 x0 xs := by
  rw [View.read_writes_eq_canon _ _ _ (View.cover_of_tiledL _ S1024x1.size (by sl_kernel_rfl))]
  unfold runMid; dsimp only; sl_unfold_words
  rw [View.canon_unit_zero hz2]
  simp only [View.readAt_eq_ld, harg2.read_unread, harg4.read_unread, View.ld_unit_zero (S := S1024x4096) hz2, View.ld_unit_zero (S := S1024x1) hz2]

/-- After a point with `j = 12`: what the point before left plus the masked tile's row sums, -/
theorem scr_last (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) (f) :
    arg4.view.read (Elt F) (arg4.view.writes (Elt F) f (runLast (F := F) c i arg2 harg2 arg3 harg3 arg4 harg4 h1 h2 h3 x0 xs).2.val)
      = k0_pay3 i x0 xs := by
  rw [View.read_writes_eq_canon _ _ _ (View.cover_of_tiledL _ S1024x1.size (by sl_kernel_rfl))]
  unfold runLast; dsimp only; sl_unfold_words
  rw [View.canon_unit_zero hz2]
  simp only [View.readAt_eq_ld, harg2.read_unread, harg4.read_unread, View.ld_unit_zero (S := S1024x4096) hz2, View.ld_unit_zero (S := S1024x1) hz2]

/-- and the output's buffer holds the same block. -/
theorem out_last (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) (f) :
    arg3.view.read (Elt F) (arg3.view.writes (Elt F) f (runLast (F := F) c i arg2 harg2 arg3 harg3 arg4 harg4 h1 h2 h3 x0 xs).1)
      = k0_pay3 i x0 xs := by
  rw [View.read_writes_eq_canon _ _ _ (View.cover_of_tiledL _ S1024x1.size (by sl_kernel_rfl))]
  unfold runLast; dsimp only; sl_unfold_words
  rw [View.canon_unit_zero hz2]
  simp only [View.readAt_eq_ld, harg2.read_unread, harg4.read_unread, View.ld_unit_zero (S := S1024x4096) hz2, View.ld_unit_zero (S := S1024x1) hz2]
  rw [View.readCov_unit_zero (S := S1024x1) arg4.view hz2]

/-! ## The invariant and the proof data -/

/-- The invariant before position `n`: at the start the launch's (the accumulator at anything); afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in (c : Dev nD) (t : Fin cfg0.N) : (dats m 0 c).after 0 t = xin m c t := by dsimp only [dats]
theorem after_out (c : Dev nD) (t : Fin cfg0.N) : (dats m 0 c).after 1 t = acc m c t.val t.isLt := by dsimp only [dats]

/-- The input's buffer when the body runs: its block where the fetch landed it, anything elsewhere. -/
theorem before_in (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl

/-- What the obligation asks of the input's buffer after the body: its block on the part the fetch moves. -/
theorem leaves_in (c : Dev nD) (t : Fin cfg0.N) :
    (dats m 0 c).leaves 0 t
      = iprop(∃ d, owns (c : Thread nD τ) (msIn t) fullShare (win0_0.fill (grid0.coords t) d (iblk m c 0 t))) := by
  unfold Dat.leaves; rw [live_in t]
  show iprop(∃ d, owns (c : Thread nD τ) (msIn t) fullShare (win0_0.fill (grid0.coords t) d (win0_0.cut (grid0.coords t) ((dats m 0 c).after 0 t)))) = _
  rw [after_in]; unfold xin; rw [Window.cut_fill]

/-- At `j = 12` the output's buffer is to hold the accumulator. -/
theorem leaves_out_last (c : Dev nD) (t : Fin cfg0.N) (h12 : t.val % 13 = 12) :
    (dats m 0 c).leaves 1 t = owns (c : Thread nD τ) (msOut t) fullShare (acc m c t.val t.isLt) := by
  unfold Dat.leaves; rw [live_out t h12]
  show owns (c : Thread nD τ) (msOut t) fullShare ((dats m 0 c).after 1 t) = _
  rw [after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ, leaves_in]
  have hN : t.val < 52 := lt_of_lt_of_eq t.isLt (show cfg0.N = 52 from N_0)
  by_cases h0 : t.val % 13 = 0
  · -- j = 0
    have h12 : ¬t.val % 13 = 12 := by omega
    rw [Dat.leaves_idle (dats m 0 c) 1 t (idle_out t h12) (noflush_out t h12), acc_first m c t h0]
    have hscr : ∀ (d0 : S1024x4096.Idx → Elt F .f32) f, scM.view.read (Elt F) (scM.view.writes (Elt F) f
          (runFirst (F := F) c (grid0.coords t) (msIn t) (hsIn t) (msOut t) (hsOut t) scM (Memref.isWhole_whole _)
            ((isFirst_iff t).mpr h0) (fun h => h12 ((isLast_iff t).mp h)) ((notLast_iff t).mpr h12)
            (win0_0.fill (grid0.coords t) d0 (iblk m c 0 t))).val)
        = k0_pay4 (xin m c t) (k0_pay1 (F := F)) := fun d0 f => by
      rw [scr_first, fill_mid m c t h12]
    have hpre : (dats m 0 c).Φ t.castSucc ⊢ iprop(iprop((∃ d, owns (c : Thread nD τ) scM fullShare d)) ∗ (∃ r, prngReg c r)) := by
      by_cases hz : t.val = 0
      · rw [PhiS_castSucc m c t, PhiS_zero m c _ _ hz, PhiA_eq]; try exact .rfl
      · rw [PhiS_castSucc m c t, PhiS_pos m c _ _ hz]
        iintro ⟨HS0, Hg⟩
        isplitl [HS0]; · iexists _; iexact HS0
        iexact Hg
    refine (sep_mono hpre .rfl).trans ?_
    iintro ⟨⟨HS0, Hg⟩, Ho, ⟨%d0, H0⟩, ⟨%d1, H1⟩⟩
    iapply ((runFirst (F := F) c (grid0.coords t) (msIn t) (hsIn t) (msOut t) (hsOut t) scM (Memref.isWhole_whole _)
      ((isFirst_iff t).mpr h0) (fun h => h12 ((isLast_iff t).mp h)) ((notLast_iff t).mpr h12)
      (win0_0.fill (grid0.coords t) d0 (iblk m c 0 t))).2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact hscr d0 es0
      iexact Hg
    isplitl [Ho]; · iexact Ho
    isplitl [H0]; · iexists _; iexact H0
    iexists _; iexact H1
  · by_cases h12 : t.val % 13 = 12
    · -- j = 12
      have hz : t.val ≠ 0 := by omega
      rw [leaves_out_last m c t h12, acc_last m c t h0 h12]
      rw [PhiS_castSucc m c t, PhiS_pos m c _ _ hz]
      iintro ⟨⟨HS0, Hg⟩, Ho, ⟨%d0, H0⟩, ⟨%d1, H1⟩⟩
      iapply ((runLast (F := F) c (grid0.coords t) (msIn t) (hsIn t) (msOut t) (hsOut t) scM (Memref.isWhole_whole _)
        (fun h => h0 ((isFirst_iff t).mp h)) ((isLast_iff t).mpr h12) (fun h => (notLast_iff t).mp h h12)
        (win0_0.fill (grid0.coords t) d0 (iblk m c 0 t)) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; rw [scr_last, pay3_fill m c t h12]
        iexact Hg
      isplitl [Ho]; · iexact Ho
      isplitl [H0]; · iexists _; iexact H0
      unfold owns; iexists _; isplitr
      swap; · iexact H1
      ipureintro; rw [out_last, pay3_fill m c t h12]
    · -- 0 < j < 12
      have hz : t.val ≠ 0 := by omega
      rw [Dat.leaves_idle (dats m 0 c) 1 t (idle_out t h12) (noflush_out t h12), acc_mid m c t h0 h12]
      rw [PhiS_castSucc m c t, PhiS_pos m c _ _ hz]
      iintro ⟨⟨HS0, Hg⟩, Ho, ⟨%d0, H0⟩, ⟨%d1, H1⟩⟩
      iapply ((runMid (F := F) c (grid0.coords t) (msIn t) (hsIn t) (msOut t) (hsOut t) scM (Memref.isWhole_whole _)
        (fun h => h0 ((isFirst_iff t).mp h)) (fun h => h12 ((isLast_iff t).mp h)) ((notLast_iff t).mpr h12)
        (win0_0.fill (grid0.coords t) d0 (iblk m c 0 t)) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; rw [scr_mid, fill_mid m c t h12]
        iexact Hg
      isplitl [Ho]; · iexact Ho
      isplitl [H0]; · iexists _; iexact H0
      iexists _; iexact H1

theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨HS0, Hg⟩
  isplitl [HS0]
  · iexists _; iexact HS0
  iexact Hg

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hin := hin m) (hout := hout m)

/-- The frame: every execution terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KiCases.lean ====
/-
  The kernel body branches three times on the class-tile coordinate `j` of the grid point `(i, j)`, `j < 13`:
  on `j = 0` it zeroes the row accumulator, on `j = 12` it adds the masked tile and writes the accumulator out,
  on `j ≠ 12` it adds the whole tile. Point `t` of the grid's 52 has `j = t mod 13`, so the three conditions are
  `t % 13 = 0`, `t % 13 = 12` and `t % 13 ≠ 12`. The output block is stored, and written back, only at the points
  with `j = 12`; the input block overhangs the array only there (columns 49152 + k with k ≥ 1105).
-/
import proofs.«124795_j35227321762365_2_alg».proof.Proof.Gen.KernelIdeal.Frame
import proofs.«124795_j35227321762365_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- `j = 0`: the condition of the first branch, as the body computes it from the coordinates. -/
abbrev isFirst (i : grid0.Coords) : Prop :=
  (Scalar.cmpi .ne (Scalar.extui (Scalar.cmpi .eq (BitVec.ofNat 32 (i 1).val) 0#32)) 0#32) = 1#1
/-- `j = 12`: the condition of the second branch. -/
abbrev isLast (i : grid0.Coords) : Prop := k0_cond2 i = 1#1
/-- `j ≠ 12`: the condition of the third branch. -/
abbrev notLast (i : grid0.Coords) : Prop :=
  (Scalar.cmpi .ne (Scalar.extui (Scalar.cmpi .ne (BitVec.ofNat 32 (i 1).val) 12#32)) 0#32) = 1#1

theorem isFirst_iff : ∀ t : Fin cfg0.N, isFirst (grid0.coords t) ↔ t.val % 13 = 0 :=
  (by decide +kernel : ∀ t : Fin grid0.N, isFirst (grid0.coords t) ↔ t.val % 13 = 0)
theorem isLast_iff : ∀ t : Fin cfg0.N, isLast (grid0.coords t) ↔ t.val % 13 = 12 :=
  (by decide +kernel : ∀ t : Fin grid0.N, isLast (grid0.coords t) ↔ t.val % 13 = 12)
theorem notLast_iff : ∀ t : Fin cfg0.N, notLast (grid0.coords t) ↔ ¬t.val % 13 = 12 :=
  (by decide +kernel : ∀ t : Fin grid0.N, notLast (grid0.coords t) ↔ ¬t.val % 13 = 12)
/-- The class-tile coordinate of point `t`. -/
theorem coord1 : ∀ t : Fin cfg0.N, ((grid0.coords t) 1).val = t.val % 13 :=
  (by decide +kernel : ∀ t : Fin grid0.N, ((grid0.coords t) 1).val = t.val % 13)
/-- The row-tile coordinate of point `t`. -/
theorem coord0 : ∀ t : Fin cfg0.N, ((grid0.coords t) 0).val = t.val / 13 :=
  (by decide +kernel : ∀ t : Fin grid0.N, ((grid0.coords t) 0).val = t.val / 13)

/-- The input window is live at every point. -/
theorem live_in : ∀ t : Fin cfg0.N, cfg0.idle 0 (grid0.coords t) = false := by decide +kernel
/-- Away from `j = 12` the output window is idle and not written back. -/
theorem idle_out : ∀ t : Fin cfg0.N, ¬t.val % 13 = 12 → cfg0.idle 1 (grid0.coords t) = true := by decide +kernel
theorem noflush_out : ∀ t : Fin cfg0.N, ¬t.val % 13 = 12 → (cfg0.win 1).flush t = false := by decide +kernel
/-- At `j = 12` it is live. -/
theorem live_out : ∀ t : Fin cfg0.N, t.val % 13 = 12 → cfg0.idle 1 (grid0.coords t) = false := by decide +kernel

/-- Each window's current staging memref at point `t`, and its wholeness. -/
abbrev msIn (t : Fin cfg0.N) : Memref sig .tc .vmem S1024x4096 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1024x1 .f32 := win0_1.stage (cfg0.slots t 1)
abbrev hsOut (t : Fin cfg0.N) : (msOut t).IsWhole := hstage0_1 ((cfg0.slots t 1).cast nbuf0_1)
/-- The row accumulator: the kernel's one scratch buffer. -/
abbrev scM : Memref sig .tc .vmem S1024x1 .f32 := Memref.whole cc0_scratch0

/-- What the launch hands the body besides the windows: the accumulator at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KiRunA.lean ====
/-
  The body at a point with `j = 0` (first branch taken, second not, third taken), on whole staging memrefs: the
  input's buffer at contents `x0`, the output's untouched, the accumulator at anything. It stores the zero block
  into the accumulator, loads the input block, and stores the accumulator plus the tile's row sums. The pieces
  the accumulator ends with are found by running the body.
-/
import proofs.«124795_j35227321762365_2_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : isFirst i) (h2 : ¬isLast i) (h3 : notLast i) (x0 : Vec F S1024x4096 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare xo ∗ (∃ d, owns (c : Thread nD τ) arg4 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, fun xo E K => ?run⟩
  case run =>
    simp only [cc0__stablemax_denom_kernel_eq_skeleton]; unfold cc0__stablemax_denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Body

end
-- ==== Proof.KiRunB.lean ====
/-
  The body at a point with `0 < j < 12` (only the third branch taken): the accumulator arrives at the contents
  `xs` the point before left and ends at `xs` plus the tile's row sums; the output's buffer is untouched.
-/
import proofs.«124795_j35227321762365_2_alg».proof.Proof.KiRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : ¬isLast i) (h3 : notLast i) (x0 : Vec F S1024x4096 .f32) (xs : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare xo ∗ owns (c : Thread nD τ) arg4 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, fun xo E K => ?run⟩
  case run =>
    simp only [cc0__stablemax_denom_kernel_eq_skeleton]; unfold cc0__stablemax_denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Body

end
-- ==== Proof.KiRunC.lean ====
/-
  The body at a point with `j = 12` (only the second branch taken): the accumulator arrives at `xs`, ends at `xs`
  plus the masked tile's row sums, and that block is stored whole into the output's buffer, which arrives at
  anything.
-/
import proofs.«124795_j35227321762365_2_alg».proof.Proof.KiRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__stablemax_denom_kernel i arg2 harg2 arg3 harg3 arg4 harg4) K } := by
  refine ⟨?_, ?_, fun E K => ?run⟩
  case run =>
    simp only [cc0__stablemax_denom_kernel_eq_skeleton]; unfold cc0__stablemax_denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact h1 | exact h2 | exact h3)
    sl_step
    iapply Hk
    isplitl [H0]
    · iexists _; isplitr; · ipureintro; exact harg2.read_unread _
      iexact H0
    isplitl [H1]
    · iexists _; iexact H1
    iexists _; iexact HS0

end Cert.KernelIdeal.Body

end
-- ==== Proof.KiPayCongr.lean ====
/-
  The masked payload of the last column tile depends only on the tile's entries at the columns that lie inside the
  array: an entry at a column `49152 + k ≥ 50257` is replaced by the zero word before the row sum, so two tiles that
  agree at the columns below 50257 give the same payload.
-/
import proofs.«124795_j35227321762365_2_alg».proof.Proof.Gen.KernelIdeal.Skeleton
import Idealize.ShloMosaic.Lib.ValueIdx
import Idealize.ShloMosaic.Lib.Pipeline.Value

noncomputable section

namespace Cert.KernelIdeal.PayCongr

open Idealize.ShloMosaic Idealize.SL.Sem Idealize.ShloMosaic.ValueIdx

variable {F : FTy → Type} [FloatOps F]

/-- Tile 12 starts at column `12 * 4096 = 49152`. -/
theorem tile_start : Scalar.muli (BitVec.ofNat 32 12) 4096#32 = 49152#32 := by decide

/-- For `k < 4096` the 32-bit signed comparison `49152 + k < 50257` answers `1` only where it holds of the naturals:
    the sum stays below `2 ^ 31`, so the word read signed is the natural number. -/
theorem in_range_of_bit (k : Fin 4096)
    (hb : IntOp.cmpi .slt (IntOp.addi 49152#32 (BitVec.ofNat 32 k.val)) 50257#32 = 1#1) : 49152 + k.val < 50257 := by
  have hk := k.isLt
  unfold IntOp.cmpi IntOp.addi at hb
  simp only [BitVec.slt, BitVec.ofBool] at hb
  by_cases hP : (49152#32 + BitVec.ofNat 32 k.val).toInt < (50257#32).toInt
  · have e1 : (49152#32 + BitVec.ofNat 32 k.val).toNat = 49152 + k.val := by
      rw [BitVec.toNat_add, BitVec.toNat_ofNat, BitVec.toNat_ofNat]; omega
    have e2 : (49152#32 + BitVec.ofNat 32 k.val).toInt = ((49152 + k.val : Nat) : Int) := by
      rw [BitVec.toInt_eq_toNat_cond, e1, if_pos (by omega)]
    have e3 : (50257#32).toInt = 50257 := by decide
    rw [e2, e3] at hP
    omega
  · rw [decide_eq_false hP] at hb
    exact absurd hb (by decide)

/-- The last tile's mask at `(r, k)` is `1` only where the column `49152 + k` is below 50257. -/
theorem mask_in_range (i : grid0.Coords) (hi : (i 1).val = 12) (hI : S1024x4096.Iotas .tc 32 [1]) (r : Fin 1024) (k : Fin 4096)
    (hb : cmpi .slt (addi (broadcast S1024x4096 (Scalar.muli (BitVec.ofNat 32 (i 1).val) 4096#32)) (iota .tc S1024x4096 32 [1] hI))
      (broadcast S1024x4096 50257#32) (ix2 r k) = 1#1) : 49152 + k.val < 50257 := by
  change IntOp.cmpi .slt (IntOp.addi (Scalar.muli (BitVec.ofNat 32 (i 1).val) 4096#32) (iota .tc S1024x4096 32 [1] hI (ix2 r k))) 50257#32 = 1#1 at hb
  rw [hi, tile_start, iota_single_apply] at hb
  exact in_range_of_bit k hb

/-- The entrywise payload at an index depends only on the tile's entry there. -/
theorem pay2_congr_at (X X' : Vec F S1024x4096 .f32) (j : S1024x4096.Idx) (h : X j = X' j) :
    Gen.k0_pay2 X j = Gen.k0_pay2 X' j := by
  unfold Gen.k0_pay2
  simp only [select, cmpf, addf, subf, divf, broadcast, h]

/-- Two tiles that agree at every column below 50257 give the last tile the same payload. -/
theorem pay3_congr (i : grid0.Coords) (hi : (i 1).val = 12) (X X' : Vec F S1024x4096 .f32) (p : Vec F S1024x1 .f32)
    (h : ∀ (r : Fin 1024) (k : Fin 4096), 49152 + k.val < 50257 → X (ix2 r k) = X' (ix2 r k)) :
    Gen.k0_pay3 i X p = Gen.k0_pay3 i X' p := by
  have key : ∀ (m : IVec S1024x4096 1) (z : FVec F S1024x4096 .f32),
      (∀ (r : Fin 1024) (k : Fin 4096), m (ix2 r k) = 1#1 → 49152 + k.val < 50257) →
      select m (Gen.k0_pay2 X) z = select m (Gen.k0_pay2 X') z := by
    intro m z hm
    funext j
    obtain ⟨r, k, rfl⟩ : ∃ (r : Fin 1024) (k : Fin 4096), j = ix2 r k := ⟨j 0, j 1, eq_ix2 j⟩
    show Scalar.select (m (ix2 r k)) (Gen.k0_pay2 X (ix2 r k)) (z (ix2 r k))
      = Scalar.select (m (ix2 r k)) (Gen.k0_pay2 X' (ix2 r k)) (z (ix2 r k))
    unfold Scalar.select
    by_cases hb : m (ix2 r k) = 1
    · rw [if_pos hb, if_pos hb]
      exact pay2_congr_at X X' _ (h r k (hm r k hb))
    · rw [if_neg hb, if_neg hb]
  unfold Gen.k0_pay3
  dsimp only
  rw [key _ _ (fun r k hb => mask_in_range i hi Gen.iota_S1024x4096_d1_w32 r k hb)]

end Cert.KernelIdeal.PayCongr

end
-- ==== Proof.KiData.lean ====
/-
  The frame of the kernel's program. Proof data of its one pipeline: the argument arrays as launched; after the body
  at point `t` the input's staging buffer at its block (filled out past the array's end by the zero word, a part
  nothing reads), the output's at the accumulator; the invariant carries the row accumulator from point to point.

  The accumulator after point `t` (`acc`): at `j = 0` the zero block plus the tile's row sums, at `0 < j < 12` the
  accumulator of the point before plus the tile's row sums, at `j = 12` that plus the row sums of the tile masked to
  the columns inside the array. At `j = 12` the staging buffer's columns past the array's end hold words nothing
  names; the mask discards exactly those, so the accumulator does not depend on them.
-/
import proofs.«124795_j35227321762365_2_alg».proof.Proof.KiRunC
import proofs.«124795_j35227321762365_2_alg».proof.Proof.KiPayCongr
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The windows' cuts -/

/-- Away from `j = 12` the input block lies inside the array. -/
theorem unclipped : ∀ t : Fin cfg0.N, ¬t.val % 13 = 12 → ∀ a, (cfg0.win 0).clip (grid0.coords t) a = none := by decide +kernel
/-- At `j = 12` the fetch moves 1024 rows of 1105 columns. -/
theorem xsize_last : ∀ t : Fin cfg0.N, t.val % 13 = 12 →
    win0_0.xsize (grid0.coords t) 0 = 1024 ∧ win0_0.xsize (grid0.coords t) 1 = 1105 := by decide +kernel

/-! ## The accumulator, point by point -/

/-- The input block at point `t`, filled out to the staging buffer's shape by the zero word. -/
def xin (c : Dev nD) (t : Fin cfg0.N) : Vec F S1024x4096 .f32 :=
  win0_0.fill (grid0.coords t) (fun _ => Scalar.ofBits .f32 0#32) (iblk m c 0 t)

/-- The accumulator after the body at point `n`. -/
def acc (c : Dev nD) : (n : ℕ) → n < cfg0.N → Vec F S1024x1 .f32
  | 0, hn => k0_pay4 (xin m c ⟨0, hn⟩) (k0_pay1 (F := F))
  | n + 1, hn =>
    if (n + 1) % 13 = 0 then k0_pay4 (xin m c ⟨n + 1, hn⟩) (k0_pay1 (F := F))
    else if (n + 1) % 13 = 12 then k0_pay3 (grid0.coords ⟨n + 1, hn⟩) (xin m c ⟨n + 1, hn⟩) (acc c n (Nat.lt_of_succ_lt hn))
    else k0_pay4 (xin m c ⟨n + 1, hn⟩) (acc c n (Nat.lt_of_succ_lt hn))

theorem acc_first (c : Dev nD) (t : Fin cfg0.N) (h0 : t.val % 13 = 0) :
    acc m c t.val t.isLt = k0_pay4 (xin m c t) (k0_pay1 (F := F)) := by
  obtain ⟨n, hn⟩ := t
  cases n with
  | zero => rfl
  | succ n => exact if_pos h0

theorem acc_mid (c : Dev nD) (t : Fin cfg0.N) (h0 : ¬t.val % 13 = 0) (h12 : ¬t.val % 13 = 12) :
    acc m c t.val t.isLt = k0_pay4 (xin m c t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_neg h12).trans rfl)

theorem acc_last (c : Dev nD) (t : Fin cfg0.N) (h0 : ¬t.val % 13 = 0) (h12 : t.val % 13 = 12) :
    acc m c t.val t.isLt = k0_pay3 (grid0.coords t) (xin m c t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_pos h12).trans rfl)

/-- Away from `j = 12` the fetch fills the whole buffer: what it held before does not matter. -/
theorem fill_mid (c : Dev nD) (t : Fin cfg0.N) (h12 : ¬t.val % 13 = 12) (d : S1024x4096.Idx → Elt F .f32) :
    win0_0.fill (grid0.coords t) d (iblk m c 0 t) = xin m c t :=
  Pipeline.fill_of_clip_none (cfg := cfg0) 0 (grid0.coords t) (unclipped t h12) d _ (iblk m c 0 t)

/-- At `j = 12` two fillings of the fetched block agree on the columns the mask keeps. -/
theorem fill_last (c : Dev nD) (t : Fin cfg0.N) (h12 : t.val % 13 = 12) (d : S1024x4096.Idx → Elt F .f32)
    (r : Fin 1024) (k : Fin 4096) (hk : 49152 + k.val < 50257) :
    win0_0.fill (grid0.coords t) d (iblk m c 0 t) (ix2 r k) = xin m c t (ix2 r k) := by
  have hm : win0_0.moved (grid0.coords t) (ix2 r k) = true := (win0_0.moved_iff _ _).mpr fun a => by
    match a with
    | ⟨0, _⟩ => show r.val < win0_0.xsize (grid0.coords t) 0; rw [(xsize_last t h12).1]; exact r.isLt
    | ⟨1, _⟩ => show k.val < win0_0.xsize (grid0.coords t) 1; rw [(xsize_last t h12).2]; omega
  unfold xin Window.fill; rw [dif_pos hm, dif_pos hm]

/-- So the masked accumulation at `j = 12` is the same over any filling. -/
theorem pay3_fill (c : Dev nD) (t : Fin cfg0.N) (h12 : t.val % 13 = 12) (d : S1024x4096.Idx → Elt F .f32) (p : Vec F S1024x1 .f32) :
    k0_pay3 (grid0.coords t) (win0_0.fill (grid0.coords t) d (iblk m c 0 t)) p = k0_pay3 (grid0.coords t) (xin m c t) p :=
  Cert.KernelIdeal.PayCongr.pay3_congr (grid0.coords t) (by rw [coord1 t, h12]) _ _ p (fun r k hk => fill_last m c t h12 d r k hk)

/-! ## What the runs' pieces leave -/

theorem hz2 : (![0, 0] : Fin 2 → Nat) = fun _ => 0 := funext fun a => by fin_cases a <;> rfl

/-- After a point with `j = 0` the accumulator holds the zero block plus the tile's row sums. -/
theorem scr_first (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : isFirst i) (h2 : ¬isLast i) (h3 : notLast i) (x0 : Vec F S1024x4096 .f32) (f) :
    arg4.view.read (Elt F) (arg4.view.writes (Elt F) f (runFirst (F := F) c i arg2 harg2 arg3 harg3 arg4 harg4 h1 h2 h3 x0).val)
      = k0_pay4 x0 (k0_pay1 (F := F)) := by
  rw [View.read_writes_eq_canon _ _ _ (View.cover_of_tiledL _ S1024x1.size (by sl_kernel_rfl))]
  unfold runFirst; dsimp only; sl_unfold_words
  rw [View.canon_cons_unit_zero hz2]
  simp only [View.readAt_eq_ld, harg2.read_unread, View.ld_unit_zero (S := S1024x4096) hz2]
  rw [View.readCov_unit_zero (S := S1024x1) arg4.view hz2]

/-- After a point with `0 < j < 12`: what the point before left plus the tile's row sums. -/
theorem scr_mid (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : ¬isLast i) (h3 : notLast i) (x0 : Vec F S1024x4096 .f32) (xs : Vec F S1024x1 .f32) (f) :
    arg4.view.read (Elt F) (arg4.view.writes (Elt F) f (runMid (F := F) c i arg2 harg2 arg3 harg3 arg4 harg4 h1 h2 h3 x0 xs).val)
      = k0_pay4 x0 xs := by
  rw [View.read_writes_eq_canon _ _ _ (View.cover_of_tiledL _ S1024x1.size (by sl_kernel_rfl))]
  unfold runMid; dsimp only; sl_unfold_words
  rw [View.canon_unit_zero hz2]
  simp only [View.readAt_eq_ld, harg2.read_unread, harg4.read_unread, View.ld_unit_zero (S := S1024x4096) hz2, View.ld_unit_zero (S := S1024x1) hz2]

/-- After a point with `j = 12`: what the point before left plus the masked tile's row sums, -/
theorem scr_last (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) (f) :
    arg4.view.read (Elt F) (arg4.view.writes (Elt F) f (runLast (F := F) c i arg2 harg2 arg3 harg3 arg4 harg4 h1 h2 h3 x0 xs).2.val)
      = k0_pay3 i x0 xs := by
  rw [View.read_writes_eq_canon _ _ _ (View.cover_of_tiledL _ S1024x1.size (by sl_kernel_rfl))]
  unfold runLast; dsimp only; sl_unfold_words
  rw [View.canon_unit_zero hz2]
  simp only [View.readAt_eq_ld, harg2.read_unread, harg4.read_unread, View.ld_unit_zero (S := S1024x4096) hz2, View.ld_unit_zero (S := S1024x1) hz2]

/-- and the output's buffer holds the same block. -/
theorem out_last (c : Dev nD) (i : grid0.Coords) (arg2 : Memref sig .tc .vmem S1024x4096 .f32) (harg2 : arg2.IsWhole)
    (arg3 : Memref sig .tc .vmem S1024x1 .f32) (harg3 : arg3.IsWhole) (arg4 : Memref sig .tc .vmem S1024x1 .f32) (harg4 : arg4.IsWhole)
    (h1 : ¬isFirst i) (h2 : isLast i) (h3 : ¬notLast i) (x0 : Vec F S1024x4096 .f32) (xs : Vec F S1024x1 .f32) (f) :
    arg3.view.read (Elt F) (arg3.view.writes (Elt F) f (runLast (F := F) c i arg2 harg2 arg3 harg3 arg4 harg4 h1 h2 h3 x0 xs).1)
      = k0_pay3 i x0 xs := by
  rw [View.read_writes_eq_canon _ _ _ (View.cover_of_tiledL _ S1024x1.size (by sl_kernel_rfl))]
  unfold runLast; dsimp only; sl_unfold_words
  rw [View.canon_unit_zero hz2]
  simp only [View.readAt_eq_ld, harg2.read_unread, harg4.read_unread, View.ld_unit_zero (S := S1024x4096) hz2, View.ld_unit_zero (S := S1024x1) hz2]
  rw [View.readCov_unit_zero (S := S1024x1) arg4.view hz2]

/-! ## The invariant and the proof data -/

/-- The invariant before position `n`: at the start the launch's (the accumulator at anything); afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in (c : Dev nD) (t : Fin cfg0.N) : (dats m 0 c).after 0 t = xin m c t := by dsimp only [dats]
theorem after_out (c : Dev nD) (t : Fin cfg0.N) : (dats m 0 c).after 1 t = acc m c t.val t.isLt := by dsimp only [dats]

/-- The input's buffer when the body runs: its block where the fetch landed it, anything elsewhere. -/
theorem before_in (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl

/-- What the obligation asks of the input's buffer after the body: its block on the part the fetch moves. -/
theorem leaves_in (c : Dev nD) (t : Fin cfg0.N) :
    (dats m 0 c).leaves 0 t
      = iprop(∃ d, owns (c : Thread nD τ) (msIn t) fullShare (win0_0.fill (grid0.coords t) d (iblk m c 0 t))) := by
  unfold Dat.leaves; rw [live_in t]
  show iprop(∃ d, owns (c : Thread nD τ) (msIn t) fullShare (win0_0.fill (grid0.coords t) d (win0_0.cut (grid0.coords t) ((dats m 0 c).after 0 t)))) = _
  rw [after_in]; unfold xin; rw [Window.cut_fill]

/-- At `j = 12` the output's buffer is to hold the accumulator. -/
theorem leaves_out_last (c : Dev nD) (t : Fin cfg0.N) (h12 : t.val % 13 = 12) :
    (dats m 0 c).leaves 1 t = owns (c : Thread nD τ) (msOut t) fullShare (acc m c t.val t.isLt) := by
  unfold Dat.leaves; rw [live_out t h12]
  show owns (c : Thread nD τ) (msOut t) fullShare ((dats m 0 c).after 1 t) = _
  rw [after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ, leaves_in]
  have hN : t.val < 52 := lt_of_lt_of_eq t.isLt (show cfg0.N = 52 from N_0)
  by_cases h0 : t.val % 13 = 0
  · -- j = 0
    have h12 : ¬t.val % 13 = 12 := by omega
    rw [Dat.leaves_idle (dats m 0 c) 1 t (idle_out t h12) (noflush_out t h12), acc_first m c t h0]
    have hscr : ∀ (d0 : S1024x4096.Idx → Elt F .f32) f, scM.view.read (Elt F) (scM.view.writes (Elt F) f
          (runFirst (F := F) c (grid0.coords t) (msIn t) (hsIn t) (msOut t) (hsOut t) scM (Memref.isWhole_whole _)
            ((isFirst_iff t).mpr h0) (fun h => h12 ((isLast_iff t).mp h)) ((notLast_iff t).mpr h12)
            (win0_0.fill (grid0.coords t) d0 (iblk m c 0 t))).val)
        = k0_pay4 (xin m c t) (k0_pay1 (F := F)) := fun d0 f => by
      rw [scr_first, fill_mid m c t h12]
    have hpre : (dats m 0 c).Φ t.castSucc ⊢ iprop(iprop((∃ d, owns (c : Thread nD τ) scM fullShare d)) ∗ (∃ r, prngReg c r)) := by
      by_cases hz : t.val = 0
      · rw [PhiS_castSucc m c t, PhiS_zero m c _ _ hz, PhiA_eq]; try exact .rfl
      · rw [PhiS_castSucc m c t, PhiS_pos m c _ _ hz]
        iintro ⟨HS0, Hg⟩
        isplitl [HS0]; · iexists _; iexact HS0
        iexact Hg
    refine (sep_mono hpre .rfl).trans ?_
    iintro ⟨⟨HS0, Hg⟩, Ho, ⟨%d0, H0⟩, ⟨%d1, H1⟩⟩
    iapply ((runFirst (F := F) c (grid0.coords t) (msIn t) (hsIn t) (msOut t) (hsOut t) scM (Memref.isWhole_whole _)
      ((isFirst_iff t).mpr h0) (fun h => h12 ((isLast_iff t).mp h)) ((notLast_iff t).mpr h12)
      (win0_0.fill (grid0.coords t) d0 (iblk m c 0 t))).2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact hscr d0 es0
      iexact Hg
    isplitl [Ho]; · iexact Ho
    isplitl [H0]; · iexists _; iexact H0
    iexists _; iexact H1
  · by_cases h12 : t.val % 13 = 12
    · -- j = 12
      have hz : t.val ≠ 0 := by omega
      rw [leaves_out_last m c t h12, acc_last m c t h0 h12]
      rw [PhiS_castSucc m c t, PhiS_pos m c _ _ hz]
      iintro ⟨⟨HS0, Hg⟩, Ho, ⟨%d0, H0⟩, ⟨%d1, H1⟩⟩
      iapply ((runLast (F := F) c (grid0.coords t) (msIn t) (hsIn t) (msOut t) (hsOut t) scM (Memref.isWhole_whole _)
        (fun h => h0 ((isFirst_iff t).mp h)) ((isLast_iff t).mpr h12) (fun h => (notLast_iff t).mp h h12)
        (win0_0.fill (grid0.coords t) d0 (iblk m c 0 t)) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; rw [scr_last, pay3_fill m c t h12]
        iexact Hg
      isplitl [Ho]; · iexact Ho
      isplitl [H0]; · iexists _; iexact H0
      unfold owns; iexists _; isplitr
      swap; · iexact H1
      ipureintro; rw [out_last, pay3_fill m c t h12]
    · -- 0 < j < 12
      have hz : t.val ≠ 0 := by omega
      rw [Dat.leaves_idle (dats m 0 c) 1 t (idle_out t h12) (noflush_out t h12), acc_mid m c t h0 h12]
      rw [PhiS_castSucc m c t, PhiS_pos m c _ _ hz]
      iintro ⟨⟨HS0, Hg⟩, Ho, ⟨%d0, H0⟩, ⟨%d1, H1⟩⟩
      iapply ((runMid (F := F) c (grid0.coords t) (msIn t) (hsIn t) (msOut t) (hsOut t) scM (Memref.isWhole_whole _)
        (fun h => h0 ((isFirst_iff t).mp h)) (fun h => h12 ((isLast_iff t).mp h)) ((notLast_iff t).mpr h12)
        (win0_0.fill (grid0.coords t) d0 (iblk m c 0 t)) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; rw [scr_mid, fill_mid m c t h12]
        iexact Hg
      isplitl [Ho]; · iexact Ho
      isplitl [H0]; · iexists _; iexact H0
      iexists _; iexact H1

theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨HS0, Hg⟩
  isplitl [HS0]
  · iexists _; iexact HS0
  iexact Hg

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hin := hin m) (hout := hout m)

/-- The frame: every execution terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The specification, over the extended reals, of what both programs compute from the logits `L` (4096 rows of
  50257 classes) and the targets `T` (one 32-bit class index per row).

  Per entry, `sfun x = x + 1` for `x ≥ 0` and `1 / (1 - x)` otherwise. Per row, `rowsum L r` is the sum of `sfun`
  over the row's classes. A negative target counts from the end (`tnorm`); `inb` says whether the class index so
  normalized lies in `[0, 50256]`; `gcol` is that index clamped into the range (the column a gather reads). Where
  the index is out of range a gather answers the not-a-number word, which on the extended reals is `⊥`.

  The kernel's loss (`lossK`, over the row denominators `D` its region produced) gathers the logit, applies `sfun`,
  divides by `max (D r) ε`; the reference's (`lossR`) divides every `sfun` by `max ε (rowsum L r)` and gathers the
  quotient. Both then clamp below by `ε`, take `-log`, and average over the 4096 rows.
-/
import Idealize.ShloMosaic.PureOps.Ideal
import Idealize.ShloMosaic.Lib.ValueIdx

noncomputable section

open scoped BigOperators

namespace Cert.Spec

open Idealize.ShloMosaic Idealize.ShloMosaic.ValueIdx

/-- The float words the two programs spell: 0, 1, the nearest single to 1e-12, 4096, and the not-a-number word. -/
abbrev zeroE : EReal := Ideal.ofBits .f32 0x00000000#32
abbrev oneE : EReal := Ideal.ofBits .f32 0x3F800000#32
abbrev epsE : EReal := Ideal.ofBits .f32 0x2B8CBCCC#32
abbrev nE : EReal := Ideal.ofBits .f32 0x45800000#32
abbrev nanE : EReal := Ideal.ofBits .f32 0x7FC00000#32

/-- `x + 1` where `x ≥ 0`, else `1 / (1 - x)`. -/
def sfun (x : EReal) : EReal :=
  Scalar.select (Ideal.cmp .oge x zeroE) (x + oneE) (Ideal.div oneE (oneE - x))

abbrev Logits : Type := (⟨2, ![4096, 50257]⟩ : Shape).Idx → EReal
abbrev Targets : Type := (⟨1, ![4096]⟩ : Shape).Idx → BitVec 32

/-- The sum of `sfun` over row `r`, from the zero word. -/
def rowsum (L : Logits) (r : Fin 4096) : EReal := zeroE + ∑ c : Fin 50257, sfun (L (ix2 r c))

/-- Row `r`'s class index with a negative one counted from the end. -/
def tnorm (T : Targets) (r : Fin 4096) : BitVec 32 :=
  Scalar.select (IntOp.cmpi .slt (T (ix1 r)) 0#32) (IntOp.addi (T (ix1 r)) 50257#32) (T (ix1 r))

/-- Whether that index lies in `[0, 50256]`. -/
def inb (T : Targets) (r : Fin 4096) : BitVec 1 :=
  IntOp.andi (IntOp.cmpi .sge (tnorm T r) 0#32) (IntOp.cmpi .sle (tnorm T r) 50256#32)

/-- The column a gather reads for row `r`: the index read signed and clamped into the range. -/
def gcol (T : Targets) (r : Fin 4096) : Fin 50257 := ⟨min (tnorm T r).toInt.toNat 50256, by omega⟩

/-- The kernel's loss from the denominators `D`. -/
def lossK (L : Logits) (T : Targets) (D : Fin 4096 → EReal) : EReal :=
  Ideal.div (zeroE + ∑ r : Fin 4096,
    -(Ideal.log (max (Ideal.div (sfun (Scalar.select (inb T r) (L (ix2 r (gcol T r))) nanE)) (max (D r) epsE)) epsE))) nE

/-- The reference's loss. -/
def lossR (L : Logits) (T : Targets) : EReal :=
  Ideal.div (zeroE + ∑ r : Fin 4096,
    -(Ideal.log (max epsE (Scalar.select (inb T r) (Ideal.div (sfun (L (ix2 r (gcol T r)))) (max epsE (rowsum L r))) nanE)))) nE

end Cert.Spec

end
-- ==== Proof.KiPay.lean ====
/-
  The three payloads of the kernel body read at an index, over the extended reals.

  The first store's payload is the zero word everywhere. The accumulating stores add to the scratch value `p` the
  sum over the 4096 columns of the tile of `sfun` of the entry; on the last tile (column tile 12, starting at column
  49152) the entries at columns `49152 + k ≥ 50257` are replaced by the zero word before the sum.
-/
import proofs.«124795_j35227321762365_2_alg».proof.Proof.Spec
import proofs.«124795_j35227321762365_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.SL.Sem Idealize.ShloMosaic.ValueIdx

/-- The entrywise payload is `sfun` of the entry. -/
theorem pay2_apply (X : Vec Ideal S1024x4096 .f32) (r : Fin 1024) (k : Fin 4096) :
    Gen.k0_pay2 (F := Ideal) X (ix2 r k) = Cert.Spec.sfun (X (ix2 r k)) := rfl

/-- The sum over axis 1 of a 1024 × 4096 block, at row `r`, is the sum over the columns `k` of the entry at `(r, k)`. -/
theorem lanesum_apply (V : FVec Ideal S1024x4096 .f32) (h : S1024x4096.Reduces [1] S1024) (hφ : FKind.Formats .f32)
    (hacc : (0x00000000#32 : BitVec 32) = FKind.add.neutral .f32 hφ) (r : Fin 1024) :
    multiReduction .add [1] S1024 V 0x00000000#32 h hφ hacc (ix1 r) = ∑ k : Fin 4096, V (ix2 r k) := by
  refine (Ideal.multiReduction_add_single V 0x00000000#32 h hφ hacc (ix1 r)).trans ?_
  refine Finset.sum_congr rfl fun k _ => congrArg V ?_
  funext a; match a with | ⟨0, _⟩ => rfl | ⟨1, _⟩ => rfl

/-- A vector of 1024 entries viewed as a 1024 × 1 column reads entry `r` at `(r, 0)`. -/
theorem col_apply (v : FVec Ideal S1024 .f32) (h : S1024.ShapeCasts S1024x1) (r : Fin 1024) :
    shapeCast S1024x1 v h (ix2 r (0 : Fin 1)) = v (ix1 r) :=
  shapeCast_apply v h _ _ (by
    rw [Shape.rowMajor_val_two, Shape.rowMajor_val_one]
    show r.val = r.val * 1 + 0
    omega)

/-- An unmasked tile adds to `p` the row's sum of `sfun` over the tile's columns. -/
theorem pay4_apply (X : Vec Ideal S1024x4096 .f32) (p : Vec Ideal S1024x1 .f32) (r : Fin 1024) :
    Gen.k0_pay4 (F := Ideal) X p (ix2 r 0)
      = p (ix2 r 0) + (Cert.Spec.zeroE + ∑ k : Fin 4096, Cert.Spec.sfun (X (ix2 r k))) := by
  unfold Gen.k0_pay4
  rw [shapeCast_self]
  rw [addf_apply, col_apply]
  refine congrArg (p (ix2 r 0) + ·) ?_
  refine (lanesum_apply _ _ _ _ r).trans ?_
  rw [show Cert.Spec.zeroE = 0 from Ideal.ofBits_zero_f32, zero_add]
  exact Finset.sum_congr rfl fun k _ => pay2_apply X r k

/-- The zero word is the extended real zero. -/
theorem zeroE_add (x : EReal) : Cert.Spec.zeroE + x = x := by
  rw [show Cert.Spec.zeroE = 0 from Ideal.ofBits_zero_f32, zero_add]

/-- The first store's payload is the zero word at every index. -/
theorem pay1_apply (j : S1024x1.Idx) : Gen.k0_pay1 (F := Ideal) j = Cert.Spec.zeroE := by
  unfold Gen.k0_pay1
  rw [shapeCast_self]
  rfl

/-- Tile 12 starts at column `12 * 4096 = 49152`. -/
theorem tile_start : Scalar.muli (BitVec.ofNat 32 12) 4096#32 = 49152#32 := by decide

/-- For `k < 4096` the 32-bit signed comparison `49152 + k < 50257` is the comparison of the naturals: the sum stays
    below `2 ^ 31`, so the word read signed is the natural number. -/
theorem slt_bit (k : Fin 4096) :
    IntOp.cmpi .slt (IntOp.addi 49152#32 (BitVec.ofNat 32 k.val)) 50257#32
      = if 49152 + k.val < 50257 then 1#1 else 0#1 := by
  have hk := k.isLt
  have e1 : (49152#32 + BitVec.ofNat 32 k.val).toNat = 49152 + k.val := by
    rw [BitVec.toNat_add, BitVec.toNat_ofNat, BitVec.toNat_ofNat]; omega
  have e2 : (49152#32 + BitVec.ofNat 32 k.val).toInt = ((49152 + k.val : Nat) : Int) := by
    rw [BitVec.toInt_eq_toNat_cond, e1, if_pos (by omega)]
  have e3 : (50257#32).toInt = 50257 := by decide
  unfold IntOp.cmpi IntOp.addi
  simp only [BitVec.slt, e2, e3]
  by_cases hP : 49152 + k.val < 50257
  · have hP' : ((49152 + k.val : Nat) : Int) < 50257 := by omega
    rw [if_pos hP, decide_eq_true hP']; rfl
  · have hP' : ¬ ((49152 + k.val : Nat) : Int) < 50257 := by omega
    rw [if_neg hP, decide_eq_false hP']; rfl

/-- The last tile's mask at `(r, k)` says whether the column `49152 + k` is below 50257. -/
theorem mask_apply (i : grid0.Coords) (hi : (i 1).val = 12) (hI : S1024x4096.Iotas .tc 32 [1]) (r : Fin 1024) (k : Fin 4096) :
    cmpi .slt (addi (broadcast S1024x4096 (Scalar.muli (BitVec.ofNat 32 (i 1).val) 4096#32)) (iota .tc S1024x4096 32 [1] hI))
      (broadcast S1024x4096 50257#32) (ix2 r k) = if 49152 + k.val < 50257 then 1#1 else 0#1 := by
  show IntOp.cmpi .slt (IntOp.addi (Scalar.muli (BitVec.ofNat 32 (i 1).val) 4096#32)
    (iota .tc S1024x4096 32 [1] hI (ix2 r k))) 50257#32 = _
  rw [hi, tile_start, iota_single_apply]
  exact slt_bit k

/-- The last tile adds to `p` the row's sum of `sfun` over the tile's columns below 50257, the zero word elsewhere. -/
theorem pay3_apply (i : grid0.Coords) (hi : (i 1).val = 12) (X : Vec Ideal S1024x4096 .f32) (p : Vec Ideal S1024x1 .f32)
    (r : Fin 1024) :
    Gen.k0_pay3 (F := Ideal) i X p (ix2 r 0)
      = p (ix2 r 0) + (Cert.Spec.zeroE + ∑ k : Fin 4096,
          if 49152 + k.val < 50257 then Cert.Spec.sfun (X (ix2 r k)) else Cert.Spec.zeroE) := by
  unfold Gen.k0_pay3
  dsimp only
  rw [shapeCast_self, addf_apply, col_apply]
  refine congrArg (p (ix2 r 0) + ·) ?_
  refine ((lanesum_apply _ _ _ _ r).trans ?_).trans (zeroE_add _).symm
  refine Finset.sum_congr rfl fun k _ => ?_
  rw [select_apply, mask_apply i hi _ r k]
  by_cases hP : 49152 + k.val < 50257
  · rw [if_pos hP, if_pos hP, select_one]
    exact pay2_apply X r k
  · rw [if_neg hP, if_neg hP, select_zero]
    rfl

end Cert.KernelIdeal.Pay

end
-- ==== Proof.KiBlock.lean ====
import proofs.«124795_j35227321762365_2_alg».proof.Proof.Gen.KernelIdeal.Frame
import Idealize.ShloMosaic.Lib.ValueIdx

/-!
  The input window's block at a grid point, read at an index, is the logits array's entry.

  Point `t` of the grid's 52 is the pair (row block `t / 13`, class tile `t % 13`); its block of 1024 × 4096 starts
  at row `1024 * (t / 13)` and class `4096 * (t % 13)`. Only the last class tile overhangs the array (classes from
  50257 on): the transfer moves the block's leading 1105 columns there and all 4096 elsewhere, so every index of
  the block whose class lies inside the array is moved, and there the filled block holds the array's entry.
-/

set_option maxRecDepth 16384

noncomputable section

namespace Cert.KernelIdeal.Block

open Cert.KernelIdeal Cert.KernelIdeal.Gen
open Idealize.ShloMosaic Idealize.ShloMosaic.TcCoe
open Idealize.SL.Sem

variable {F : FTy → Type} [FloatOps F]

/-- Decided over the 52 grid points: the sizes of what the transfer at `t` moves, and the block indices. -/
theorem win_facts : ∀ t : Fin cfg0.N, win0_0.xsize (grid0.coords t) (0 : Fin 2) = 1024
    ∧ win0_0.xsize (grid0.coords t) (1 : Fin 2) = (if t.val % 13 = 12 then 1105 else 4096)
    ∧ win0_0.index t (0 : Fin 2) = t.val / 13
    ∧ win0_0.index t (1 : Fin 2) = t.val % 13 :=
  (by decide +kernel : ∀ t : Fin grid0.N, _)

theorem fill_read (m : (ℓ : Loc nD τ sig) → Buf (Elt F) ℓ) (c : Dev nD) (t : Fin cfg0.N) (d : S1024x4096.Idx → Elt F .f32)
    (r : Fin 1024) (k : Fin 4096) (hk : 4096 * (t.val % 13) + k.val < 50257) :
    win0_0.fill (grid0.coords t) d (Gen.iblk m c 0 t) (ValueIdx.ix2 r k)
      = (m ((c : Thread nD τ).loc main_arg0)) (ValueIdx.ix2 ⟨1024 * (t.val / 13) + r.val, by have := t.isLt; have h : cfg0.N = 52 := N_0; have := r.isLt; omega⟩ ⟨4096 * (t.val % 13) + k.val, hk⟩) := by
  obtain ⟨e0, e1, e2, e3⟩ := win_facts t
  have hmv : win0_0.moved (grid0.coords t) (ValueIdx.ix2 r k) = true := by
    rw [Pipeline.Window.moved_iff]
    intro a
    match a with
    | ⟨0, _⟩ => show r.val < win0_0.xsize (grid0.coords t) (0 : Fin 2); rw [e0]; exact r.isLt
    | ⟨1, _⟩ => show k.val < win0_0.xsize (grid0.coords t) (1 : Fin 2); rw [e1]; have := k.isLt; split <;> omega
  unfold Pipeline.Window.fill
  rw [dif_pos hmv]
  show V m c main_arg0 (((cfg0.win 0).blk t).view.emb _) = V m c main_arg0 _
  refine congrArg (V m c main_arg0) ?_
  funext a; apply Fin.ext
  match a with
  | ⟨0, _⟩ => show win0_0.index t (0 : Fin 2) * 1024 + 1 * r.val = 1024 * (t.val / 13) + r.val; rw [e2]; omega
  | ⟨1, _⟩ => show win0_0.index t (1 : Fin 2) * 4096 + 1 * k.val = 4096 * (t.val % 13) + k.val; rw [e3]; omega

end Cert.KernelIdeal.Block

end
-- ==== Proof.LossBridge.lean ====
import proofs.«124795_j35227321762365_2_alg».proof.Proof.Spec
import Idealize.ShloMosaic.PureOps.Ideal.Laws

/-!
  Two facts over the extended reals.

  * With the true row sums as denominators the kernel's loss is the reference's: row by row the two differ by the
    order of a maximum's arguments where the class index is in range; out of range the gathered value is `⊥`, and
    both sides come to `ε` (`sfun ⊥ = 1 / (1 - ⊥) = 1 / ⊤ = 0`, `0 / d = 0` for `d ≠ 0`, `max 0 ε = ε`,
    `max ε ⊥ = ε`).
  * A row sum over the 50257 classes is the running sum of 13 tile sums of 4096 terms, the terms from 50257 on
    being zero.
-/

noncomputable section

open scoped BigOperators

namespace Cert.Spec

open Idealize.ShloMosaic Idealize.ShloMosaic.ValueIdx

/-! ### The words -/

theorem zeroE_eq : zeroE = 0 := by simp [Ideal.ofBits, Ideal.ieee]

theorem oneE_eq : oneE = 1 := by
  simp [Ideal.ofBits, Ideal.ieee, -EReal.coe_mul]; norm_num

theorem nanE_eq : nanE = ⊥ := by simp [Ideal.ofBits, Ideal.ieee]

theorem epsE_pos : 0 < epsE := by
  simp [Ideal.ofBits, Ideal.ieee, -EReal.coe_mul]

/-! ### The loss with the true denominators -/

/-- A one-bit word is `0` or `1`. -/
theorem bv1_cases (b : BitVec 1) : b = 0#1 ∨ b = 1#1 := by
  revert b; decide

/-- `sfun ⊥ = 1 / (1 - ⊥) = 1 / ⊤ = 0`. -/
theorem sfun_nanE : sfun nanE = 0 := by
  unfold sfun
  rw [nanE_eq, zeroE_eq, oneE_eq]
  have hc : Ideal.cmp .oge (⊥ : EReal) 0 = 0#1 := by
    simp [Ideal.cmp]
  have hs : (1 : EReal) - ⊥ = ⊤ := by
    rw [sub_eq_add_neg, EReal.neg_bot]
    refine EReal.add_top_of_ne_bot ?_
    rw [← EReal.coe_one]
    exact EReal.coe_ne_bot 1
  rw [hc, hs]
  simp [Scalar.select, Ideal.div]

/-- `0 / d = 0` off `d = 0`. -/
theorem div_zero_left {d : EReal} (hd : d ≠ 0) : Ideal.div 0 d = 0 := by
  unfold Ideal.div
  rw [if_neg hd, zero_mul]

/-- Row by row: in range the two sides differ by the order of each maximum's arguments; out of range both are `ε`. -/
theorem row_eq (L : Logits) (T : Targets) (r : Fin 4096) :
    max (Ideal.div (sfun (Scalar.select (inb T r) (L (ix2 r (gcol T r))) nanE)) (max (rowsum L r) epsE)) epsE
      = max epsE (Scalar.select (inb T r) (Ideal.div (sfun (L (ix2 r (gcol T r)))) (max epsE (rowsum L r))) nanE) := by
  rcases bv1_cases (inb T r) with h | h
  · have hd : max (rowsum L r) epsE ≠ 0 :=
      ne_of_gt (lt_of_lt_of_le epsE_pos (le_max_right _ _))
    rw [h]
    simp only [Scalar.select]
    rw [if_neg (by decide), if_neg (by decide), sfun_nanE, div_zero_left hd, nanE_eq,
      max_eq_right (le_of_lt epsE_pos), max_eq_left bot_le]
  · rw [h]
    simp only [Scalar.select]
    rw [if_pos (by decide), if_pos (by decide), max_comm (rowsum L r) epsE, max_comm _ epsE]

theorem lossK_rowsum (L : Logits) (T : Targets) : lossK L T (fun r => rowsum L r) = lossR L T := by
  unfold lossK lossR
  simp only [row_eq]

/-! ### A row sum by tiles -/

/-- A row's terms continued by zero past the last class. -/
def gg (g : Fin 50257 → EReal) (n : ℕ) : EReal := if h : n < 50257 then g ⟨n, h⟩ else zeroE

/-- The running sum of the tile sums `t 0, t 1, …`, from the zero word. -/
def accum (t : ℕ → EReal) : ℕ → EReal
  | 0 => zeroE + t 0
  | (j+1) => accum t j + t (j+1)

theorem accum_eq_sum (t : ℕ → EReal) : ∀ n, accum t n = zeroE + ∑ j ∈ Finset.range (n + 1), t j
  | 0 => by simp [accum]
  | n+1 => by rw [accum, accum_eq_sum t n, Finset.sum_range_succ _ (n + 1), add_assoc]

/-- `m` consecutive blocks of `n` terms are the first `n * m` terms. -/
theorem sum_blocks (f : ℕ → EReal) (n : ℕ) :
    ∀ m, ∑ j ∈ Finset.range m, ∑ k ∈ Finset.range n, f (n * j + k) = ∑ i ∈ Finset.range (n * m), f i
  | 0 => by simp
  | m+1 => by rw [Finset.sum_range_succ, sum_blocks f n m, Nat.mul_succ, Finset.sum_range_add]

/-- The first 53248 terms of the continued row are the row: the terms from 50257 on vanish. -/
theorem sum_gg (g : Fin 50257 → EReal) : ∑ i ∈ Finset.range 53248, gg g i = ∑ c : Fin 50257, g c := by
  have h : (53248 : ℕ) = 50257 + 2991 := by norm_num
  rw [h, Finset.sum_range_add, Finset.sum_range]
  have h0 : ∑ x ∈ Finset.range 2991, gg g (50257 + x) = 0 :=
    Finset.sum_eq_zero fun x _ => by
      unfold gg
      rw [dif_neg (by omega), zeroE_eq]
  rw [h0, add_zero]
  refine Finset.sum_congr rfl fun c _ => ?_
  unfold gg
  rw [dif_pos c.isLt]

theorem accum_tiles (g : Fin 50257 → EReal) (t : ℕ → EReal)
    (ht : ∀ j, j < 12 → t j = zeroE + ∑ k : Fin 4096, gg g (4096 * j + k.val))
    (h12 : t 12 = zeroE + ∑ k : Fin 4096, if 49152 + k.val < 50257 then gg g (49152 + k.val) else zeroE) :
    accum t 12 = zeroE + ∑ c : Fin 50257, g c := by
  have htile : ∀ j ∈ Finset.range 13, t j = ∑ k ∈ Finset.range 4096, gg g (4096 * j + k) := by
    intro j hj
    rw [Finset.sum_range]
    rcases Nat.lt_or_ge j 12 with hlt | hge
    · rw [ht j hlt, zeroE_eq, zero_add]
    · have hj12 : j = 12 := by have := Finset.mem_range.mp hj; omega
      subst hj12
      rw [h12, zeroE_eq, zero_add]
      refine Finset.sum_congr rfl fun k _ => ?_
      by_cases hk : 49152 + k.val < 50257
      · rw [if_pos hk]
      · rw [if_neg hk]
        unfold gg
        rw [dif_neg (by omega), zeroE_eq]
  rw [accum_eq_sum, Finset.sum_congr rfl htile, sum_blocks (gg g) 4096 13, sum_gg]

end Cert.Spec

end
-- ==== Proof.KiAccum.lean ====
/-
  The row accumulator after the last class tile is the row sum.

  Fix a row tile `I` and a row `p` of it. Tile `j < 12` contributes the sum of `sfun` over the 4096 entries of row
  `1024·I + p` at the columns `4096·j + k`; tile 12 the same over the columns `49152 + k` that are below 50257. The
  accumulator starts from the zero word and adds the tiles in order, so after tile 12 it is the zero word plus the
  sum over all 50257 columns: thirteen stretches of 4096 regrouped into one sum, which needs only that addition on
  the extended reals is commutative and associative.
-/
import proofs.«124795_j35227321762365_2_alg».proof.Proof.KiData
import proofs.«124795_j35227321762365_2_alg».proof.Proof.KiPay
import proofs.«124795_j35227321762365_2_alg».proof.Proof.KiBlock
import proofs.«124795_j35227321762365_2_alg».proof.Proof.LossBridge

noncomputable section

open scoped BigOperators

namespace Cert.KernelIdeal.Denom

open Cert.KernelIdeal Cert.KernelIdeal.Gen Cert.KernelIdeal.Body Cert.Spec
open Idealize.ShloMosaic Idealize.ShloMosaic.TcCoe Idealize.SL.Sem Idealize.ShloMosaic.ValueIdx

variable (m : (ℓ : Loc nD τ sig) → Buf (Elt Ideal) ℓ) (c : Dev nD)

theorem acc_at {n n' : ℕ} (e : n = n') (h : n < cfg0.N) (h' : n' < cfg0.N) :
    acc (F := Ideal) m c n h = acc (F := Ideal) m c n' h' := by subst e; rfl

/-- Entries of the logits at equal coordinates are equal. -/
theorem entry_congr (L : Logits) {a a' : Fin 4096} {b b' : Fin 50257} (ha : a.val = a'.val) (hb : b.val = b'.val) :
    L (ix2 a b) = L (ix2 a' b') := by
  obtain rfl := Fin.ext ha; obtain rfl := Fin.ext hb; rfl

/-- The input block at point `n`, for every natural `n` (the zero block past the grid). -/
def xinN (n : ℕ) : Vec Ideal S1024x4096 .f32 := if h : n < cfg0.N then xin (F := Ideal) m c ⟨n, h⟩ else fun _ => zeroE

/-- What class tile `j` adds to row `p` of row tile `I`. -/
def tile (I : ℕ) (p : Fin 1024) (j : ℕ) : EReal :=
  if j < 12 then zeroE + ∑ k : Fin 4096, sfun (xinN m c (13 * I + j) (ix2 p k))
  else zeroE + ∑ k : Fin 4096, if 49152 + k.val < 50257 then sfun (xinN m c (13 * I + 12) (ix2 p k)) else zeroE

/-- Through the first twelve tiles the accumulator is the running sum of the tiles. -/
theorem acc_eq_accum (I : ℕ) (p : Fin 1024) : ∀ (j : ℕ) (hj : j ≤ 11) (hn : 13 * I + j < cfg0.N),
    acc (F := Ideal) m c (13 * I + j) hn (ix2 p 0) = accum (tile m c I p) j
  | 0, _, hn => by
    have h0 : (⟨13 * I + 0, hn⟩ : Fin cfg0.N).val % 13 = 0 := by dsimp only; omega
    refine (congrFun (acc_first (F := Ideal) m c ⟨13 * I + 0, hn⟩ h0) (ix2 p 0)).trans ?_
    rw [Pay.pay4_apply, Pay.pay1_apply]
    show zeroE + (zeroE + ∑ k : Fin 4096, sfun (xin (F := Ideal) m c ⟨13 * I + 0, hn⟩ (ix2 p k))) = zeroE + tile m c I p 0
    unfold tile xinN; rw [if_pos (by norm_num), dif_pos hn]
  | j + 1, hj, hn => by
    have hprev : 13 * I + j < cfg0.N := by omega
    have ih := acc_eq_accum I p j (by omega) hprev
    have h0 : ¬(⟨13 * I + (j + 1), hn⟩ : Fin cfg0.N).val % 13 = 0 := by dsimp only; omega
    have h12 : ¬(⟨13 * I + (j + 1), hn⟩ : Fin cfg0.N).val % 13 = 12 := by dsimp only; omega
    refine (congrFun (acc_mid (F := Ideal) m c ⟨13 * I + (j + 1), hn⟩ h0 h12) (ix2 p 0)).trans ?_
    rw [Pay.pay4_apply, acc_at m c (show (⟨13 * I + (j + 1), hn⟩ : Fin cfg0.N).val - 1 = 13 * I + j by dsimp only; omega) _ hprev, ih]
    show accum (tile m c I p) j + (zeroE + ∑ k : Fin 4096, sfun (xin (F := Ideal) m c ⟨13 * I + (j + 1), hn⟩ (ix2 p k)))
      = accum (tile m c I p) j + tile m c I p (j + 1)
    unfold tile xinN; rw [if_pos (by omega), dif_pos hn]

/-- The thirteenth tile is added masked. -/
theorem acc_last_eq (I : ℕ) (p : Fin 1024) (hn : 13 * I + 12 < cfg0.N) :
    acc (F := Ideal) m c (13 * I + 12) hn (ix2 p 0) = accum (tile m c I p) 12 := by
  have hprev : 13 * I + 11 < cfg0.N := by omega
  have h0 : ¬(⟨13 * I + 12, hn⟩ : Fin cfg0.N).val % 13 = 0 := by dsimp only; omega
  have h12 : (⟨13 * I + 12, hn⟩ : Fin cfg0.N).val % 13 = 12 := by dsimp only; omega
  refine (congrFun (acc_last (F := Ideal) m c ⟨13 * I + 12, hn⟩ h0 h12) (ix2 p 0)).trans ?_
  rw [Pay.pay3_apply _ (by rw [coord1]; exact h12),
    acc_at m c (show (⟨13 * I + 12, hn⟩ : Fin cfg0.N).val - 1 = 13 * I + 11 by dsimp only; omega) _ hprev,
    acc_eq_accum m c I p 11 (le_refl _) hprev]
  show accum (tile m c I p) 11 + (zeroE + ∑ k : Fin 4096,
      if 49152 + k.val < 50257 then sfun (xin (F := Ideal) m c ⟨13 * I + 12, hn⟩ (ix2 p k)) else zeroE)
    = accum (tile m c I p) 11 + tile m c I p 12
  unfold tile xinN; rw [if_neg (by norm_num), dif_pos hn]

/-- THE DENOMINATOR: after the last class tile of row tile `I` the accumulator's row `p` is the row sum of row
    `1024·I + p` of the logits. -/
theorem acc_rowsum (I : ℕ) (hI : I < 4) (p : Fin 1024) (hn : 13 * I + 12 < cfg0.N) :
    acc (F := Ideal) m c (13 * I + 12) hn (ix2 p 0)
      = rowsum (m ((c : Thread nD τ).loc main_arg0)) ⟨1024 * I + p.val, by have := p.isLt; omega⟩ := by
  rw [acc_last_eq m c I p hn]
  unfold rowsum
  refine accum_tiles (fun col => sfun ((m ((c : Thread nD τ).loc main_arg0) : Logits) (ix2 ⟨1024 * I + p.val, by have := p.isLt; omega⟩ col)))
    (tile m c I p) (fun j hj => ?_) ?_
  · have hnj : 13 * I + j < cfg0.N := by omega
    unfold tile xinN; rw [if_pos hj, dif_pos hnj]
    congr 1; refine Finset.sum_congr rfl fun k _ => ?_
    have hk : 4096 * j + k.val < 50257 := by have := k.isLt; omega
    unfold gg; rw [dif_pos hk]; unfold xin
    rw [Block.fill_read m c ⟨13 * I + j, hnj⟩ _ p k (by dsimp only; have := k.isLt; omega)]
    exact congrArg sfun (entry_congr _ (by dsimp only; omega) (by dsimp only; omega))
  · unfold tile xinN; rw [if_neg (by norm_num), dif_pos hn]
    congr 1; refine Finset.sum_congr rfl fun k _ => ?_
    split
    · rename_i hk
      unfold gg; rw [dif_pos hk]; unfold xin
      rw [Block.fill_read m c ⟨13 * I + 12, hn⟩ _ p k (by dsimp only; omega)]
      exact congrArg sfun (entry_congr _ (by dsimp only; omega) (by dsimp only; omega))
    · rfl

end Cert.KernelIdeal.Denom

end
-- ==== Proof.KiFinal.lean ====
import proofs.«124795_j35227321762365_2_alg».proof.Proof.KiData
import proofs.«124795_j35227321762365_2_alg».proof.Proof.Spec
import Idealize.ShloMosaic.Lib.Pipeline.Value
import Idealize.ShloMosaic.Lib.ValueIdx

/-!
  From the blocks written back to the whole array of denominators.

  The output's block of 1024 rows (one column) is written back exactly at the points `t` with `t % 13 = 12`, at block
  row `t / 13`; there it holds the accumulator after point `t`. The four such points' blocks tile the 4096 rows: row
  `r` lies in the block of the point `13 * (r / 1024) + 12`. So if the accumulator after each of those points is, row
  by row, the row sum of the logits, the array ends holding every row's sum.
-/

set_option maxRecDepth 16384

noncomputable section

namespace Cert.KernelIdeal.Denom

open Cert.KernelIdeal Cert.KernelIdeal.Gen
open Idealize.ShloMosaic Idealize.ShloMosaic.TcCoe
open Idealize.SL.Sem
open Idealize.ShloMosaic.Pipeline (Dat Window)

/-- Decided over the 52 grid points: the output's block is whole (1024 × 1) and sits at block row `t / 13`. -/
theorem out_facts : ∀ t : Fin cfg0.N, win0_1.xsize (grid0.coords t) (0 : Fin 2) = 1024
    ∧ win0_1.xsize (grid0.coords t) (1 : Fin 2) = 1
    ∧ win0_1.index t (0 : Fin 2) = t.val / 13
    ∧ win0_1.index t (1 : Fin 2) = 0 :=
  (by decide +kernel : ∀ t : Fin grid0.N, _)

/-- The accumulator depends on the point's position only. -/
theorem acc_congr (m : (ℓ : Loc nD τ sig) → Buf (Elt Ideal) ℓ) (c : Dev nD) (n n' : ℕ) (h : n < cfg0.N) (h' : n' < cfg0.N)
    (e : n = n') : Body.acc (F := Ideal) m c n h = Body.acc (F := Ideal) m c n' h' := by
  subst e; rfl

/-- The array of denominators: each row's sum. -/
abbrev G (m : (ℓ : Loc nD τ sig) → Buf (Elt Ideal) ℓ) (c : Dev nD) : S4096x1.Idx → Elt Ideal .f32 :=
  fun j => Cert.Spec.rowsum (m ((c : Thread nD τ).loc main_arg0)) (j 0)

/-- What a point with `t % 13 = 12` writes back is its block of that array. -/
theorem flushed_eq (m : (ℓ : Loc nD τ sig) → Buf (Elt Ideal) ℓ) (c : Dev nD)
    (hacc : ∀ (I : ℕ) (hI : I < 4) (p : Fin 1024) (hn : 13 * I + 12 < cfg0.N),
      Body.acc (F := Ideal) m c (13 * I + 12) hn (ValueIdx.ix2 p 0) = Cert.Spec.rowsum (m ((c : Thread nD τ).loc main_arg0)) ⟨1024 * I + p.val, by have := p.isLt; omega⟩)
    (t : Fin cfg0.N) (hf : (cfg0.win 1).flush t = true) :
    (Body.dats (F := Ideal) m 0 c).flushed 1 t = ((cfg0.win 1).blk t).view.read (Elt Ideal) (G m c) := by
  have h12 : t.val % 13 = 12 := (flush0_1 t).mp hf
  have hN : cfg0.N = 52 := N_0
  have ht : t.val < 52 := lt_of_lt_of_eq t.isLt hN
  obtain ⟨e0, e1, e2, e3⟩ := out_facts t
  show (cfg0.win 1).cut (grid0.coords t) ((Body.dats (F := Ideal) m 0 c).after 1 t) = _
  rw [Body.after_out]
  funext y
  have hy0 : (y 0).val < win0_1.xsize (grid0.coords t) (0 : Fin 2) := (y 0).isLt
  have hy1 : (y 1).val < win0_1.xsize (grid0.coords t) (1 : Fin 2) := (y 1).isLt
  rw [e0] at hy0
  rw [e1] at hy1
  have hx : win0_1.xinj (grid0.coords t) y = (ValueIdx.ix2 (⟨(y 0).val, hy0⟩ : Fin 1024) (0 : Fin 1) : S1024x1.Idx) := by
    funext a; apply Fin.ext
    match a with
    | ⟨0, _⟩ => rfl
    | ⟨1, _⟩ => show (y 1).val = 0; omega
  show Body.acc (F := Ideal) m c t.val t.isLt (win0_1.xinj (grid0.coords t) y) = G m c (((cfg0.win 1).blk t).view.emb y)
  rw [hx, acc_congr m c t.val (13 * (t.val / 13) + 12) t.isLt (by omega) (by omega),
    hacc (t.val / 13) (by omega) ⟨(y 0).val, hy0⟩]
  show Cert.Spec.rowsum _ _ = Cert.Spec.rowsum _ (((cfg0.win 1).blk t).view.emb y 0)
  refine congrArg (Cert.Spec.rowsum _) (Fin.ext ?_)
  show 1024 * (t.val / 13) + (y 0).val = win0_1.index t (0 : Fin 2) * 1024 + 1 * (y 0).val
  rw [e2]; omega

/-- An index of the array is in point `t`'s block iff each coordinate is in the block's range on its axis. -/
theorem mem_blk (t : Fin cfg0.N) (i : S4096x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

theorem final_out (m : (ℓ : Loc nD τ sig) → Buf (Elt Ideal) ℓ) (c : Dev nD)
    (hacc : ∀ (I : ℕ) (hI : I < 4) (p : Fin 1024) (hn : 13 * I + 12 < cfg0.N),
      Body.acc (F := Ideal) m c (13 * I + 12) hn (ValueIdx.ix2 p 0) = Cert.Spec.rowsum (m ((c : Thread nD τ).loc main_arg0)) ⟨1024 * I + p.val, by have := p.isLt; omega⟩)
    (r : Fin 4096) :
    ((Body.dats (F := Ideal) m 0 c).arrAt 1 cfg0.N) (ValueIdx.ix2 r 0) = Cert.Spec.rowsum (m ((c : Thread nD τ).loc main_arg0)) r := by
  have hN : cfg0.N = 52 := N_0
  have hr : r.val < 4096 := r.isLt
  have htlt : 13 * (r.val / 1024) + 12 < cfg0.N := by omega
  have hf : (cfg0.win 1).flush ⟨13 * (r.val / 1024) + 12, htlt⟩ = true :=
    (flush0_1 _).mpr (by show (13 * (r.val / 1024) + 12) % 13 = 12; omega)
  obtain ⟨e0, e1, e2, e3⟩ := out_facts ⟨13 * (r.val / 1024) + 12, htlt⟩
  have hi : (ValueIdx.ix2 r (0 : Fin 1) : S4096x1.Idx) ∈ ((cfg0.win 1).blk ⟨13 * (r.val / 1024) + 12, htlt⟩).view.set := by
    rw [mem_blk]
    intro a
    match a with
    | ⟨0, _⟩ =>
      show win0_1.index ⟨13 * (r.val / 1024) + 12, htlt⟩ (0 : Fin 2) * 1024 ≤ r.val ∧ r.val < win0_1.index ⟨13 * (r.val / 1024) + 12, htlt⟩ (0 : Fin 2) * 1024 + 1024
      rw [e2]
      show (13 * (r.val / 1024) + 12) / 13 * 1024 ≤ r.val ∧ r.val < (13 * (r.val / 1024) + 12) / 13 * 1024 + 1024
      omega
    | ⟨1, _⟩ =>
      show win0_1.index ⟨13 * (r.val / 1024) + 12, htlt⟩ (1 : Fin 2) * 1 ≤ 0 ∧ 0 < win0_1.index ⟨13 * (r.val / 1024) + 12, htlt⟩ (1 : Fin 2) * 1 + 1
      rw [e3]; omega
  exact (Body.dats (F := Ideal) m 0 c).arrAt_apply_of_mem 1 (G m c) (flushed_eq m c hacc) cfg0.N
    ⟨13 * (r.val / 1024) + 12, htlt⟩ (ValueIdx.ix2 r (0 : Fin 1)) htlt hf hi

end Cert.KernelIdeal.Denom

end
-- ==== Proof.KiTail.lean ====
/-
  The kernel's host operations after its region, as the specification's `lossK`.

  After the region the program clamps the row denominators below by ε, normalizes each row's class index (a negative
  one counted from the end), tests it for lying in `[0, 50256]`, gathers the logit of the row at that column (the row
  axis is a batching axis of the gather, the class axis is collapsed and is the one the start index names; the start
  index is read signed and clamped), replaces the out-of-range rows' by the not-a-number word, applies `sfun`, divides
  by the clamped denominator, clamps below by ε, negates the logarithm, sums the 4096 terms from the zero word and
  divides by 4096. `tailTerm` is that composition as one term of the logits, the targets and the denominators; read one
  operation at a time at an index it is `lossK`.
-/
import proofs.«124795_j35227321762365_2_alg».proof.Proof.Gen.KernelIdeal.Frame
import proofs.«124795_j35227321762365_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

/-! ## The host operations after the region, as one term of the logits, the targets and the row denominators -/

/-- The targets as a column. -/
def tcol (T : Cert.Spec.Targets) : S4096x1.Idx → BitVec 32 :=
  broadcastInDim S4096x1 ![0] bcast_S4096_S4096x1_0 T

/-- The class index of each row with a negative one counted from the end, as a column. -/
def tn (T : Cert.Spec.Targets) : S4096x1.Idx → BitVec 32 :=
  select (cmpi .slt (tcol T) (broadcastInDim S4096x1 ![] bcast_S_S4096x1 (constantI S_ 32 0#32)))
    (addi (tcol T) (broadcastInDim S4096x1 ![] bcast_S_S4096x1 (constantI S_ 32 50257#32))) (tcol T)

/-- The same with a trailing unit axis: the start indices of the gather. -/
def tn3 (T : Cert.Spec.Targets) : S4096x1x1.Idx → BitVec 32 :=
  shapeCast S4096x1x1 (tn T) shapeCasts_S4096x1_S4096x1x1

/-- Whether each row's index lies in the range: the and over the unit axis of the two comparisons. -/
def msk (T : Cert.Spec.Targets) : S4096x1.Idx → BitVec 1 :=
  Host.reduce IntOp.andi
    (andi (cmpi .sge (tn3 T) (broadcastInDim S4096x1x1 ![] bcast_S_S4096x1x1 (constantI S_ 32 0#32)))
      (cmpi .sle (tn3 T) (broadcastInDim S4096x1x1 ![0, 1, 2] bcast_S1x1x1_S4096x1x1_0_1_2
        (broadcastInDim S1x1x1 ![2] bcast_S1_S1x1x1_2 (constantI S1 32 50256#32)))))
    (constantI S_ 1 1#1) reducesTo_S4096x1x1_S4096x1_d2 h_S_

/-- The gathered logit of each row, the not-a-number word where the index is out of range. -/
def gat (L : Cert.Spec.Logits) (T : Cert.Spec.Targets) : S4096x1.Idx → EReal :=
  select (msk T) (Host.gather gather_S4096x50257_S4096x1x1_S4096x1_n_1_0_0_1_2_11 L (tn3 T))
    (broadcastInDim S4096x1 ![] bcast_S_S4096x1 (constant (F := Ideal) S_ .f32 0x7FC00000#32))

/-- `x + 1` where `x ≥ 0`, else `1 / (1 - x)`, entry by entry. -/
def sfv (x : S4096.Idx → EReal) : S4096.Idx → EReal :=
  select (cmpf (F := Ideal) .oge x (broadcastInDim S4096 ![] bcast_S_S4096 (constant (F := Ideal) S_ .f32 0x00000000#32)))
    (addf (F := Ideal) x (broadcastInDim S4096 ![] bcast_S_S4096 (constant (F := Ideal) S_ .f32 0x3F800000#32)))
    (Host.divf (F := Ideal) (broadcastInDim S4096 ![] bcast_S_S4096 (constant (F := Ideal) S_ .f32 0x3F800000#32))
      (subf (F := Ideal) (broadcastInDim S4096 ![] bcast_S_S4096 (constant (F := Ideal) S_ .f32 0x3F800000#32)) x))

/-- The operations composed: the mean over the rows of minus the logarithm of the clamped quotient. -/
def tailTerm (L : Cert.Spec.Logits) (T : Cert.Spec.Targets) (D : S4096x1.Idx → EReal) : S_.Idx → EReal :=
  Host.divf (F := Ideal)
    (Host.reduceAdd (F := Ideal)
      (Host.negf (F := Ideal) (Host.log (F := Ideal) (maximumf (F := Ideal)
        (Host.divf (F := Ideal) (sfv (shapeCast S4096 (gat L T) shapeCasts_S4096x1_S4096))
          (shapeCast S4096 (maximumf (F := Ideal) D
            (broadcastInDim S4096x1 ![] bcast_S_S4096x1 (constant (F := Ideal) S_ .f32 0x2B8CBCCC#32))) shapeCasts_S4096x1_S4096))
        (broadcastInDim S4096 ![] bcast_S_S4096 (constant (F := Ideal) S_ .f32 0x2B8CBCCC#32)))))
      (constant (F := Ideal) S_ .f32 0x00000000#32) reducesTo_S4096_S_d0 h_S_)
    (constant (F := Ideal) S_ .f32 0x45800000#32)

set_option maxRecDepth 8192 in
set_option maxHeartbeats 2000000 in
/-- The five stretches run from any contents `W`: the last buffer holds the composed term of the three buffers read. -/
theorem after_tail (W : Valuation τ sig (Elt Ideal)) :
    StableHlo.after (List.flatten [hostOps1 (F := Ideal), hostOps1_1, hostOps1_2, hostOps1_3, hostOps1_4]) W (Proc.devRef .tc main_v22)
      = tailTerm (W (Proc.devRef .tc main_arg0)) (W (Proc.devRef .tc main_arg1)) (W (Proc.devRef .tc main_v0)) := by
  simp only [hostOps1, hostOps1_1, hostOps1_2, hostOps1_3, hostOps1_4, List.flatten_cons, List.flatten_nil, List.append_nil,
    List.cons_append, List.nil_append]
  after_results_simp
  rfl

/-- After the region: the logits and the targets are as launched, the denominators are the output window's array. -/
theorem tail_term (m : (ℓ : Loc nD τ sig) → Buf (Elt Ideal) ℓ)
    (dats : (p : Fin 1) → (c : Dev nD) → Pipeline.Dat τ (Elt Ideal) Unit ℕ (UR sig nD τ) ℕ (cfgs p) c)
    (hA : ∀ c w, (dats 0 c).A w = Gen.V m c (Pipeline.arrRef spec0 w)) (c : Dev nD) :
    Pipeline.afterTail₀ cfgs dats 0 (Gen.V0 m) [hostOps1, hostOps1_1, hostOps1_2, hostOps1_3, hostOps1_4] c main_v22
      = tailTerm (m ((c : Thread nD τ).loc main_arg0)) (m ((c : Thread nD τ).loc main_arg1)) ((dats 0 c).arrAt 1 cfg0.N) := by
  unfold Pipeline.afterTail₀
  refine (after_tail _).trans ?_
  have h0 : Pipeline.withArrays (cfgs 0).spec c (Gen.V0 m c) (fun w => (dats 0 c).arrAt w (cfgs 0).N) (Proc.devRef .tc main_arg0)
      = m ((c : Thread nD τ).loc main_arg0) :=
    (Pipeline.withArrays_arr spec0 launch0.win.arr_inj c _ _ 0).trans
      (((dats 0 c).arrAt_in 0 rfl _).trans ((hA c 0).trans (Gen.V_main_arg0 m c)))
  have h1 : Pipeline.withArrays (cfgs 0).spec c (Gen.V0 m c) (fun w => (dats 0 c).arrAt w (cfgs 0).N) (Proc.devRef .tc main_arg1)
      = m ((c : Thread nD τ).loc main_arg1) :=
    (Pipeline.withArrays_of_ne _ c (Gen.V0 m c) _ main_arg1
      (by exact (by decide : ∀ w, Pipeline.arrRef spec0 w ≠ main_arg1))).trans (Gen.V_main_arg1 m c)
  have h2 : Pipeline.withArrays (cfgs 0).spec c (Gen.V0 m c) (fun w => (dats 0 c).arrAt w (cfgs 0).N) (Proc.devRef .tc main_v0)
      = (dats 0 c).arrAt 1 cfg0.N :=
    Pipeline.withArrays_arr spec0 launch0.win.arr_inj c _ _ 1
  exact congr (congr (congrArg tailTerm h0) h1) h2

/-! ## The term read one operation at a time at an index -/

open Cert.Spec

/-- The targets' column at `(r, z)` is row `r`'s target. -/
theorem tcol_apply (T : Targets) (r : Fin 4096) (z : Fin 1) : tcol T (ix2 r z) = T (ix1 r) := by
  unfold tcol
  exact broadcastInDim_apply _ bcast_S4096_S4096x1_0 T (ix2 r z) (ix1 r) (fun a => match a with
    | ⟨0, _⟩ => by show r.val = if (4096 : Nat) = 1 then 0 else r.val; rw [if_neg (by decide)])

/-- The class index with a negative one counted from the end, as a column. -/
theorem tn_apply (T : Targets) (r : Fin 4096) (z : Fin 1) : tn T (ix2 r z) = tnorm T r := by
  unfold tn tnorm
  show Scalar.select (IntOp.cmpi .slt (tcol T (ix2 r z)) 0#32) (IntOp.addi (tcol T (ix2 r z)) 50257#32) (tcol T (ix2 r z)) = _
  rw [tcol_apply]

/-- The same read at the rank-3 start indices. -/
theorem tn3_apply (T : Targets) (r : Fin 4096) (z z' : Fin 1) : tn3 T (ix3 r z z') = tnorm T r := by
  unfold tn3
  rw [shapeCast_apply (tn T) shapeCasts_S4096x1_S4096x1x1 (ix3 r z z') (ix2 r (0 : Fin 1)) (by
      rewrite [Shape.rowMajor_val_two, Shape.rowMajor_val_three]
      have := z.isLt; have := z'.isLt
      show r.val * 1 + 0 = (r.val * 1 + z.val) * 1 + z'.val
      omega), tn_apply]

/-- On one-bit words, `and` with the set bit changes nothing. -/
theorem andi_one (b : BitVec 1) : IntOp.andi b 1#1 = b := by
  rcases BitVec.eq_zero_or_eq_one b with h | h <;> subst h <;> rfl

/-- A fold over the one-element index set is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

theorem reduces_d2 : S4096x1x1.Reduces [2] S4096x1 := by decide

/-- The `and` over the size-one last axis of the two comparisons is the in-range bit itself. -/
theorem msk_apply (T : Targets) (r : Fin 4096) (z : Fin 1) : msk T (ix2 r z) = inb T r := by
  unfold msk
  rw [Host.reduce_eq_fold_single IntOp.andi _ _ reducesTo_S4096x1x1_S4096x1_d2 reduces_d2 h_S_]
  refine (fold_fin_one IntOp.andi _ _).trans ?_
  show IntOp.andi (IntOp.andi (IntOp.cmpi .sge (tn3 T (reduces_d2.lift (ix2 r z) (0 : Fin 1))) 0#32)
      (IntOp.cmpi .sle (tn3 T (reduces_d2.lift (ix2 r z) (0 : Fin 1))) 50256#32)) 1#1 = _
  rw [andi_one,
    show reduces_d2.lift (ix2 r z) (0 : Fin 1) = ix3 r z (0 : Fin 1) from
      funext fun a => by match a with | ⟨0, _⟩ => rfl | ⟨1, _⟩ => rfl | ⟨2, _⟩ => rfl,
    tn3_apply]
  rfl

/-- The program's gather read at `(r, z)`: row `r` of the operand at the row's start index, read signed and clamped
    into `[0, 50256]`. The row axis is a batching axis (the result's row is the operand's), the class axis is collapsed
    and is the one the start index names. -/
theorem gather_row_apply {α : Type} {w : Nat} (x : S4096x50257.Idx → α) (idx : IVec S4096x1x1 w) (r : Fin 4096) (z : Fin 1) :
    Host.gather gather_S4096x50257_S4096x1x1_S4096x1_n_1_0_0_1_2_11 x idx (ix2 r z)
      = x (ix2 r ⟨min (idx (ix3 r z (0 : Fin 1))).toInt.toNat 50256, by omega⟩) := by
  unfold Host.gather
  congr 1
  funext a
  refine Fin.ext ?_
  match a with
  | ⟨0, _⟩ =>
    show gather_S4096x50257_S4096x1x1_S4096x1_n_1_0_0_1_2_11.start (ix2 r z) idx (0 : Fin 2)
      + gather_S4096x50257_S4096x1x1_S4096x1_n_1_0_0_1_2_11.batchCoord (ix2 r z) (0 : Fin 2)
      + gather_S4096x50257_S4096x1x1_S4096x1_n_1_0_0_1_2_11.offCoord (ix2 r z) (0 : Fin 2) = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4096x50257_S4096x1x1_S4096x1_n_1_0_0_1_2_11.operandBatchingDims from
      List.mem_singleton.mpr rfl)]
    rfl
  | ⟨1, _⟩ =>
    show gather_S4096x50257_S4096x1x1_S4096x1_n_1_0_0_1_2_11.start (ix2 r z) idx (1 : Fin 2)
      + gather_S4096x50257_S4096x1x1_S4096x1_n_1_0_0_1_2_11.batchCoord (ix2 r z) (1 : Fin 2)
      + gather_S4096x50257_S4096x1x1_S4096x1_n_1_0_0_1_2_11.offCoord (ix2 r z) (1 : Fin 2)
      = min (idx (ix3 r z (0 : Fin 1))).toInt.toNat 50256
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x50257_S4096x1x1_S4096x1_n_1_0_0_1_2_11.startIndexMap from
      List.mem_singleton.mpr rfl)]
    have hsi : gather_S4096x50257_S4096x1x1_S4096x1_n_1_0_0_1_2_11.siIdx (ix2 r z)
        ⟨List.idxOf (1 : Fin 2) gather_S4096x50257_S4096x1x1_S4096x1_n_1_0_0_1_2_11.startIndexMap,
          List.idxOf_lt_length_iff.2 (List.mem_singleton.mpr rfl)⟩ = ix3 r z (0 : Fin 1) := by
      funext b; refine Fin.ext ?_
      match b with
      | ⟨0, _⟩ => rfl
      | ⟨1, _⟩ => rfl
      | ⟨2, _⟩ => rfl
    rw [hsi]
    rfl

/-- The gathered logit of row `r`, the not-a-number word where the index is out of range. -/
theorem gat_apply (L : Logits) (T : Targets) (r : Fin 4096) (z : Fin 1) :
    gat L T (ix2 r z) = Scalar.select (inb T r) (L (ix2 r (gcol T r))) nanE := by
  have e : ∀ h, (⟨min (tn3 T (ix3 r z (0 : Fin 1))).toInt.toNat 50256, h⟩ : Fin 50257) = gcol T r :=
    fun h => Fin.ext (by show min _ 50256 = min _ 50256; rw [tn3_apply])
  unfold gat
  show Scalar.select (msk T (ix2 r z))
    (Host.gather gather_S4096x50257_S4096x1x1_S4096x1_n_1_0_0_1_2_11 L (tn3 T) (ix2 r z)) nanE = _
  rw [msk_apply, gather_row_apply, e]

/-- The piecewise map entry by entry is `sfun`. -/
theorem sfv_apply (x : S4096.Idx → EReal) (i : S4096.Idx) : sfv x i = sfun (x i) := rfl

/-- A rank-1 index set is its coordinate's range. -/
def idxEquiv1 {n : Nat} : (⟨1, ![n]⟩ : Shape).Idx ≃ Fin n where
  toFun j := j 0
  invFun := ix1
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ r : Fin n, f (ix1 r) :=
  (Equiv.sum_comp (idxEquiv1 (n := n)).symm f).symm

/-- A column read as a vector over the rows. -/
theorem col_apply {α : Type} (y : S4096x1.Idx → α) (r : Fin 4096) :
    shapeCast S4096 y shapeCasts_S4096x1_S4096 (ix1 r) = y (ix2 r (0 : Fin 1)) :=
  shapeCast_apply y shapeCasts_S4096x1_S4096 (ix1 r) (ix2 r (0 : Fin 1)) (by
    rewrite [Shape.rowMajor_val_two, Shape.rowMajor_val_one]
    show r.val * 1 + 0 = r.val
    omega)

/-- THE TAIL'S VALUE: the composed term is `lossK` of the logits, the targets and the denominators, at its one index. -/
theorem tail_eq (L : Logits) (T : Targets) (D : S4096x1.Idx → EReal) :
    tailTerm L T D = fun _ => lossK L T (fun r => D (ix2 r (0 : Fin 1))) := by
  funext i
  unfold tailTerm lossK
  show Ideal.div (Host.reduceAdd (F := Ideal) _ _ reducesTo_S4096_S_d0 h_S_ i) nE = _
  rw [hostReduceAdd_apply, Ideal.hostReduceAdd_total reducesTo_S4096_S_d0 (fun b => b.elim0), sum_idx1]
  refine congrArg (fun s => Ideal.div s nE) (congrArg (zeroE + ·) (Finset.sum_congr rfl fun r _ => ?_))
  show -(Ideal.log (max (Ideal.div (sfv _ (ix1 r)) (shapeCast S4096 _ shapeCasts_S4096x1_S4096 (ix1 r))) epsE)) = _
  rw [sfv_apply, col_apply, col_apply, gat_apply]
  rfl

/-- THE KERNEL'S TAIL: after the region the last buffer holds `lossK` of the logits and targets as launched and of
    the denominators the region left in the output window's array. -/
theorem tail_loss (m : (ℓ : Loc nD τ sig) → Buf (Elt Ideal) ℓ)
    (dats : (p : Fin 1) → (c : Dev nD) → Pipeline.Dat τ (Elt Ideal) Unit ℕ (UR sig nD τ) ℕ (cfgs p) c)
    (hA : ∀ c w, (dats 0 c).A w = Gen.V m c (Pipeline.arrRef spec0 w)) (c : Dev nD) :
    Pipeline.afterTail₀ cfgs dats 0 (Gen.V0 m) [hostOps1, hostOps1_1, hostOps1_2, hostOps1_3, hostOps1_4] c main_v22
      = fun _ => Cert.Spec.lossK (m ((c : Thread nD τ).loc main_arg0)) (m ((c : Thread nD τ).loc main_arg1))
          (fun r => ((dats 0 c).arrAt 1 cfg0.N) (ValueIdx.ix2 r 0)) :=
  (tail_term m dats hA c).trans (tail_eq _ _ _)

end Cert.KernelIdeal.Tail

end
-- ==== Proof.RefLoss.lean ====
/-
  The reference's result as the specification's `lossR`.

  The reference's run ends with its result at the composed term of its 56 operations over the argument arrays. Read
  one operation at a time at an index, that term is: per entry `sfun` of the logit; per row the sum of those from the
  zero word (`rowsum`), clamped below by ε; per entry the quotient of the two. The class index of a row, a negative one
  counted from the end (`tnorm`), is tested for lying in `[0, 50256]` (`inb`: an `and` over a size-one axis is the bit
  itself) and, read signed and clamped into that range (`gcol`), names the column of the row the gather reads: the row
  axis is a batching axis of the gather, the class axis is collapsed and is the one the start index names. An
  out-of-range row's quotient is replaced by the not-a-number word. Each row's value is then clamped below by ε, its
  logarithm negated, and the 4096 terms are summed from the zero word and divided by 4096: `lossR`.
-/
import proofs.«124795_j35227321762365_2_alg».proof.Proof.Gen.ReferenceIdeal.Read
import proofs.«124795_j35227321762365_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- Every entry of the piecewise map's stage is `sfun` of the logit. -/
theorem v8_apply (L : Logits) (r : Fin 4096) (c : Fin 50257) :
    val_main_v8 (F := Ideal) L (ix2 r c) = sfun (L (ix2 r c)) := by
  rw [val_main_v8_apply, val_main_v1_apply, val_main_v0_apply, val_main_cst_apply, val_main_v3_apply, val_main_v2_apply,
    val_main_cst_0_apply, val_main_v7_apply, val_main_v6_apply, val_main_cst_2_apply, val_main_v5_apply, val_main_v4_apply,
    val_main_cst_1_apply]
  rfl

/-- A row's sum stage is `rowsum`. -/
theorem v9_apply (L : Logits) (r : Fin 4096) : val_main_v9 (F := Ideal) L (ix1 r) = rowsum L r := by
  rw [val_main_v9_apply, val_main_cst_3_apply]
  unfold rowsum
  refine congrArg (_ + ·) (Finset.sum_congr rfl fun c _ => ?_)
  rw [show idx_main_v9 (ix1 r) c = ix2 r c from funext fun a => by match a with | ⟨0, _⟩ => rfl | ⟨1, _⟩ => rfl]
  exact v8_apply L r c

/-- The clamped denominator of row `r`. -/
theorem v11_apply (L : Logits) (r : Fin 4096) (z : Fin 1) :
    val_main_v11 (F := Ideal) L (ix2 r z) = max epsE (rowsum L r) := by
  rw [val_main_v11_apply, val_main_call1_v1_apply, val_main_call1_v0_apply, val_main_cst_4_apply, val_main_v10_apply,
    show idx_main_v10 (ix2 r z) = ix1 r from funext fun a => by match a with | ⟨0, _⟩ => rfl, v9_apply]
  rfl

/-- Every quotient: `sfun` of the logit over the row's clamped denominator. -/
theorem v13_apply (L : Logits) (r : Fin 4096) (c : Fin 50257) :
    val_main_v13 (F := Ideal) L (ix2 r c) = Ideal.div (sfun (L (ix2 r c))) (max epsE (rowsum L r)) := by
  rw [val_main_v13_apply, val_main_v12_apply, v8_apply,
    show idx_main_v12 (ix2 r c) = ix2 r (0 : Fin 1) from funext fun a => by match a with | ⟨0, _⟩ => rfl | ⟨1, _⟩ => rfl,
    v11_apply]
  rfl

/-- The class index with a negative one counted from the end, as a column. -/
theorem c2v4_apply (T : Targets) (r : Fin 4096) (z : Fin 1) :
    val_main_call2_v4 (F := Ideal) T (ix2 r z) = tnorm T r := by
  rw [val_main_call2_v4_apply, val_main_call2_v1_apply, val_main_v14_apply, val_main_call2_v0_apply, val_main_call2_c_apply,
    val_main_call2_v3_apply, val_main_v14_apply, val_main_call2_v2_apply, val_main_call2_c_0_apply,
    show idx_main_v14 (ix2 r z) = ix1 r from funext fun a => by match a with | ⟨0, _⟩ => rfl]
  rfl

/-- The same read at the rank-3 start indices. -/
theorem c2v5_apply (T : Targets) (r : Fin 4096) (z z' : Fin 1) :
    val_main_call2_v5 (F := Ideal) T (ix3 r z z') = tnorm T r := by
  rw [val_main_call2_v5_apply,
    show idx_main_call2_v5 (ix3 r z z') = ix2 r (0 : Fin 1) from funext fun a => by
      match a with
      | ⟨0, _⟩ => exact Fin.ext (by show ((r.val * 1 + z.val) * 1 + z'.val) / 1 = r.val; have := z.isLt; have := z'.isLt; omega)
      | ⟨1, _⟩ => rfl,
    c2v4_apply]

/-- The in-range bit at the start indices. -/
theorem c2v11_apply (T : Targets) (r : Fin 4096) (z z' : Fin 1) :
    val_main_call2_v11 (F := Ideal) T (ix3 r z z') = inb T r := by
  rw [val_main_call2_v11_apply, val_main_call2_v7_apply, c2v5_apply, val_main_call2_v6_apply, val_main_call2_c_2_apply,
    val_main_call2_v10_apply, c2v5_apply, val_main_call2_v9_apply, val_main_call2_v8_apply, val_main_call2_c_1_apply]
  rfl

/-- On one-bit words, `and` with the set bit changes nothing. -/
theorem andi_one (b : BitVec 1) : IntOp.andi b 1#1 = b := by
  rcases BitVec.eq_zero_or_eq_one b with h | h <;> subst h <;> rfl

/-- A fold over the one-element index set is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

theorem reduces_d2 : S4096x1x1.Reduces [2] S4096x1 := by decide

/-- The `and` over the size-one last axis of the in-range bits is the bit itself. -/
theorem c2v12_apply (T : Targets) (r : Fin 4096) (z : Fin 1) :
    val_main_call2_v12 (F := Ideal) T (ix2 r z) = inb T r := by
  unfold val_main_call2_v12
  rw [Host.reduce_eq_fold_single IntOp.andi _ _ reducesTo_S4096x1x1_S4096x1_d2 reduces_d2 h_S_]
  refine (fold_fin_one IntOp.andi _ _).trans ?_
  show IntOp.andi (val_main_call2_v11 (F := Ideal) T (reduces_d2.lift (ix2 r z) (0 : Fin 1))) 1#1 = _
  rw [andi_one,
    show reduces_d2.lift (ix2 r z) (0 : Fin 1) = ix3 r z (0 : Fin 1) from
      funext fun a => by match a with | ⟨0, _⟩ => rfl | ⟨1, _⟩ => rfl | ⟨2, _⟩ => rfl,
    c2v11_apply]

/-- The program's gather read at `(r, z)`: row `r` of the operand at the row's start index, read signed and clamped
    into `[0, 50256]`. The row axis is a batching axis (the result's row is the operand's), the class axis is collapsed
    and is the one the start index names. -/
theorem gather_row_apply {α : Type} {w : Nat} (x : S4096x50257.Idx → α) (idx : IVec S4096x1x1 w) (r : Fin 4096) (z : Fin 1) :
    Host.gather gather_S4096x50257_S4096x1x1_S4096x1_n_1_0_0_1_2_11 x idx (ix2 r z)
      = x (ix2 r ⟨min (idx (ix3 r z (0 : Fin 1))).toInt.toNat 50256, by omega⟩) := by
  unfold Host.gather
  congr 1
  funext a
  refine Fin.ext ?_
  match a with
  | ⟨0, _⟩ =>
    show gather_S4096x50257_S4096x1x1_S4096x1_n_1_0_0_1_2_11.start (ix2 r z) idx (0 : Fin 2)
      + gather_S4096x50257_S4096x1x1_S4096x1_n_1_0_0_1_2_11.batchCoord (ix2 r z) (0 : Fin 2)
      + gather_S4096x50257_S4096x1x1_S4096x1_n_1_0_0_1_2_11.offCoord (ix2 r z) (0 : Fin 2) = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4096x50257_S4096x1x1_S4096x1_n_1_0_0_1_2_11.operandBatchingDims from
      List.mem_singleton.mpr rfl)]
    rfl
  | ⟨1, _⟩ =>
    show gather_S4096x50257_S4096x1x1_S4096x1_n_1_0_0_1_2_11.start (ix2 r z) idx (1 : Fin 2)
      + gather_S4096x50257_S4096x1x1_S4096x1_n_1_0_0_1_2_11.batchCoord (ix2 r z) (1 : Fin 2)
      + gather_S4096x50257_S4096x1x1_S4096x1_n_1_0_0_1_2_11.offCoord (ix2 r z) (1 : Fin 2)
      = min (idx (ix3 r z (0 : Fin 1))).toInt.toNat 50256
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x50257_S4096x1x1_S4096x1_n_1_0_0_1_2_11.startIndexMap from
      List.mem_singleton.mpr rfl)]
    have hsi : gather_S4096x50257_S4096x1x1_S4096x1_n_1_0_0_1_2_11.siIdx (ix2 r z)
        ⟨List.idxOf (1 : Fin 2) gather_S4096x50257_S4096x1x1_S4096x1_n_1_0_0_1_2_11.startIndexMap,
          List.idxOf_lt_length_iff.2 (List.mem_singleton.mpr rfl)⟩ = ix3 r z (0 : Fin 1) := by
      funext b; refine Fin.ext ?_
      match b with
      | ⟨0, _⟩ => rfl
      | ⟨1, _⟩ => rfl
      | ⟨2, _⟩ => rfl
    rw [hsi]
    rfl

/-- The gathered quotient, the out-of-range rows replaced by the not-a-number word. -/
theorem v15_apply (L : Logits) (T : Targets) (r : Fin 4096) (z : Fin 1) :
    val_main_v15 (F := Ideal) L T (ix2 r z)
      = Scalar.select (inb T r) (Ideal.div (sfun (L (ix2 r (gcol T r)))) (max epsE (rowsum L r))) nanE := by
  have e : ∀ h, (⟨min (val_main_call2_v5 (F := Ideal) T (ix3 r z (0 : Fin 1))).toInt.toNat 50256, h⟩ : Fin 50257) = gcol T r :=
    fun h => Fin.ext (by show min _ 50256 = min _ 50256; rw [c2v5_apply])
  rw [val_main_v15_apply, c2v12_apply, val_main_call2_v14_apply, val_main_call2_cst_apply]
  unfold val_main_call2_v13
  rw [gather_row_apply, e, v13_apply]
  rfl

/-- The same as a vector over the rows. -/
theorem v16_apply (L : Logits) (T : Targets) (r : Fin 4096) :
    val_main_v16 (F := Ideal) L T (ix1 r)
      = Scalar.select (inb T r) (Ideal.div (sfun (L (ix2 r (gcol T r)))) (max epsE (rowsum L r))) nanE := by
  rw [val_main_v16_apply,
    show idx_main_v16 (ix1 r) = ix2 r (0 : Fin 1) from funext fun a => by
      match a with
      | ⟨0, _⟩ => exact Fin.ext (Nat.div_one _)
      | ⟨1, _⟩ => rfl,
    v15_apply]

/-- Row `r`'s term of the loss: minus the logarithm of the quotient clamped below. -/
theorem v19_apply (L : Logits) (T : Targets) (r : Fin 4096) :
    val_main_v19 (F := Ideal) L T (ix1 r)
      = -(Ideal.log (max epsE (Scalar.select (inb T r) (Ideal.div (sfun (L (ix2 r (gcol T r)))) (max epsE (rowsum L r))) nanE))) := by
  rw [val_main_v19_apply, val_main_v18_apply, val_main_v17_apply, val_main_call3_v1_apply, val_main_call3_v0_apply,
    val_main_cst_5_apply, v16_apply]
  rfl

/-- A rank-1 index set is its coordinate's range. -/
def idxEquiv1 {n : Nat} : (⟨1, ![n]⟩ : Shape).Idx ≃ Fin n where
  toFun j := j 0
  invFun := ix1
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ r : Fin n, f (ix1 r) :=
  (Equiv.sum_comp (idxEquiv1 (n := n)).symm f).symm

/-- THE REFERENCE'S VALUE: its last stage is `lossR` of the two arguments, at its one index. -/
theorem ref_loss (L : Logits) (T : Targets) : val_main_v21 (F := Ideal) L T = fun _ => lossR L T := by
  funext i
  rw [val_main_v21_apply, val_main_v20_apply, val_main_cst_6_apply, val_main_cst_7_apply, sum_idx1]
  unfold lossR
  simp only [v19_apply]
  rfl

/-- Every execution of the reference ends with its result at `lossR` of the argument arrays, the arguments unchanged. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun _ => Cert.Spec.lossR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v21_eq _ _).trans (ref_loss _ _)), (h c).2.1, (h c).2.2⟩)
    (Value.run (F := Ideal) m ρ)

end Cert.ReferenceIdeal.RefValue

end
-- ==== Proof.lean ====
/-
  A loss over 4096 rows of 50257 logits `L` with one target class per row `T`, on the extended reals. With
  `sfun x = x + 1` for `x ≥ 0` and `1 / (1 - x)` otherwise, and `ε` the single nearest 1e-12, both programs compute
  the mean over the rows of `-log (max (sfun L[r, T r] / max (Σ_c sfun L[r, c]) ε) ε)`.

  The kernel computes the row denominators `Σ_c sfun L[r, c]` in a region: 13 column tiles of 4096, accumulated in a
  scratch row block from the zero word, the last tile masked to the 1105 columns inside the array; the accumulator
  is written out after the last tile. That this is the whole row sum is a regrouping of a finite sum and needs no
  finiteness. The host lines after the region gather `L[r, T r]`, apply `sfun` and divide; the reference divides
  every `sfun L[r, c]` by the clamped row sum and gathers the quotient: the same entry, since a gather commutes
  with entrywise operations. Where a target is out of range both gathers answer the not-a-number word, which on the
  extended reals is `⊥`: the kernel's row then gives `max (sfun ⊥ / d) ε = max (0 / d) ε = ε` (`d ≥ ε > 0`), the
  reference's `max ε ⊥ = ε`.

  Each kernel program's frame (it terminates, faults nowhere and leaves its arguments as launched) is proved at
  its own instance from the body's three control cases (class tile 0, the middle tiles, class tile 12); the
  reference's is its run with the result dropped. No operation was rewritten by the idealization.
-/
import proofs.«124795_j35227321762365_2_alg».proof.Defs
import proofs.«124795_j35227321762365_2_alg».proof.Proof.Gen.Kernel
import proofs.«124795_j35227321762365_2_alg».proof.Proof.Gen.KernelIdeal
import proofs.«124795_j35227321762365_2_alg».proof.Proof.Gen.ReferenceIdeal
import proofs.«124795_j35227321762365_2_alg».proof.Proof.Gen.Pre_finite_inputs
import proofs.«124795_j35227321762365_2_alg».proof.Proof.KbData
import proofs.«124795_j35227321762365_2_alg».proof.Proof.KiData
import proofs.«124795_j35227321762365_2_alg».proof.Proof.KiAccum
import proofs.«124795_j35227321762365_2_alg».proof.Proof.KiFinal
import proofs.«124795_j35227321762365_2_alg».proof.Proof.KiTail
import proofs.«124795_j35227321762365_2_alg».proof.Proof.RefLoss
import proofs.«124795_j35227321762365_2_alg».proof.Proof.LossBridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.RefValue.run_loss m ρ)

theorem preserves : Cert.preserves_Kernel_KernelIdeal := trivial

/-- Both idealized programs end with the reference's loss of the common arguments. -/
theorem algebraic : Cert.algebraic_KernelIdeal_ReferenceIdeal := by
  intro m ρ m' ρ' _ hagree
  refine ⟨fun c => (fun _ => Cert.Spec.lossR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Body.run_main (F := Ideal) m ρ)
    · rw [(h c).2 Cert.KernelIdeal.main_v22 (Pipeline.mem_restRefs_of Cert.KernelIdeal.main_v22 (by decide) (by decide)),
        Cert.KernelIdeal.Tail.tail_loss m (Cert.KernelIdeal.Body.dats m) (Cert.KernelIdeal.Body.A_eq m) c,
        show (fun r => ((Cert.KernelIdeal.Body.dats (F := Ideal) m 0 c).arrAt 1 Cert.KernelIdeal.cfg0.N) (ix2 r 0))
          = (fun r => Cert.Spec.rowsum (m ((c.tc : Thread Cert.KernelIdeal.nD Cert.KernelIdeal.τ).loc Cert.KernelIdeal.main_arg0)) r)
          from funext (Cert.KernelIdeal.Denom.final_out m c (Cert.KernelIdeal.Denom.acc_rowsum m c)),
        Cert.Spec.lossK_rowsum]
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Body.dats m) c)
  · refine (θ_run Cert.ReferenceIdeal.defs _ _).mono (fun r h c => ⟨?_, (h c).2.1, (h c).2.2⟩)
      (Cert.ReferenceIdeal.RefValue.run_loss m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
